-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S262144 : Shape := ⟨1, ![262144]⟩
abbrev S256x64 : Shape := ⟨2, ![256, 64]⟩
abbrev S64 : Shape := ⟨1, ![64]⟩
abbrev S64x1 : Shape := ⟨2, ![64, 1]⟩
abbrev S1 : Shape := ⟨1, ![1]⟩
abbrev S2x262144 : Shape := ⟨2, ![2, 262144]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S262144 : S_.BroadcastsInDim S262144 (![] : Fin 0 → Fin S262144.rank)
  reducesTo_S262144_S_d0 : S262144.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S64 .f32) (main_arg5 : FVec F S64x1 .f32) (main_arg6 : FVec F S1 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg5
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S8192x128 .f32) (main_arg1 : FVec F S8192x8192 .f32) (main_arg2 : FVec F S262144 .f32) (main_arg3 : FVec F S256x64 .f32) (main_arg4 : FVec F S64 .f32) (main_arg5 : FVec F S64x1 .f32) (main_arg6 : FVec F S1 .f32) (main_arg7 : IVec S2x262144 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S262144 .f32 := Host.absf main_arg2
  let main_cst_2 : FVec F S_ .f32 := constant S_ .f32 0x7F800000#32
  let main_v10 : FVec F S262144 .f32 := broadcastInDim S262144 ![] bcast_S_S262144 main_cst_2
  let main_v11 : IVec S262144 1 := cmpf .olt main_v9 main_v10
  let main_c_3 : IVec S_ 1 := constantI S_ 1 1#1
  let main_v12 : IVec S_ 1 := (fun x v => Host.reduce IntOp.andi x v reducesTo_S262144_S_d0 h_S_) main_v11 main_c_3
  let main_v13 : IVec S_ 1 := andi main_v8 main_v12
  let main_v14 : FVec F S256x64 .f32 := Host.absf main_arg3
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg4 main_arg5 main_arg6 main_v13 main_v16
-- ==== Kernel.lean ====
abbrev S8192x128 : Shape := ⟨2, ![8192, 128]⟩
abbrev S8192x8192 : Shape := ⟨2, ![8192, 8192]⟩
abbrev S262144 : Shape := ⟨1, ![262144]⟩
abbrev S256x64 : Shape := ⟨2, ![256, 64]⟩
abbrev S64 : Shape := ⟨1, ![64]⟩
abbrev S64x1 : Shape := ⟨2, ![64, 1]⟩
abbrev S1 : Shape := ⟨1, ![1]⟩
abbrev S2x262144 : Shape := ⟨2, ![2, 262144]⟩
abbrev S1x262144 : Shape := ⟨2, ![1, 262144]⟩
abbrev S128x64 : Shape := ⟨2, ![128, 64]⟩
abbrev S8192x64 : Shape := ⟨2, ![8192, 64]⟩
abbrev S_ : Shape := ⟨0, ![]⟩
abbrev S262144x1 : Shape := ⟨2, ![262144, 1]⟩
abbrev S262144x64 : Shape := ⟨2, ![262144, 64]⟩
abbrev S16384x64 : Shape := ⟨2, ![16384, 64]⟩
abbrev S16384 : Shape := ⟨1, ![16384]⟩
abbrev S1x64 : Shape := ⟨2, ![1, 64]⟩
abbrev S262144x2 : Shape := ⟨2, ![262144, 2]⟩
abbrev S1024x1024 : Shape := ⟨2, ![1024, 1024]⟩

abbrev nBuf : Space → Nat
  | .hbm => 57
  | .vmem => 19
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S262144, .f32⟩
  | .hbm, ⟨3, _⟩ => ⟨S256x64, .f32⟩
  | .hbm, ⟨4, _⟩ => ⟨S64, .f32⟩
  | .hbm, ⟨5, _⟩ => ⟨S64x1, .f32⟩
  | .hbm, ⟨6, _⟩ => ⟨S1, .f32⟩
  | .hbm, ⟨7, _⟩ => ⟨S2x262144, .i32⟩
  | .hbm, ⟨8, _⟩ => ⟨S1x262144, .i32⟩
  | .hbm, ⟨9, _⟩ => ⟨S262144, .i32⟩
  | .hbm, ⟨10, _⟩ => ⟨S1x262144, .i32⟩
  | .hbm, ⟨11, _⟩ => ⟨S262144, .i32⟩
  | .hbm, ⟨12, _⟩ => ⟨S128x64, .f32⟩
  | .hbm, ⟨13, _⟩ => ⟨S128x64, .f32⟩
  | .hbm, ⟨14, _⟩ => ⟨S8192x64, .f32⟩
  | .hbm, ⟨15, _⟩ => ⟨S8192x64, .f32⟩
  | .hbm, ⟨16, _⟩ => ⟨S_, .i32⟩
  | .hbm, ⟨17, _⟩ => ⟨S262144, .i32⟩
  | .hbm, ⟨18, _⟩ => ⟨S262144, .i1⟩
  | .hbm, ⟨19, _⟩ => ⟨S_, .i32⟩
  | .hbm, ⟨20, _⟩ => ⟨S262144, .i32⟩
  | .hbm, ⟨21, _⟩ => ⟨S262144, .i32⟩
  | .hbm, ⟨22, _⟩ => ⟨S262144, .i32⟩
  | .hbm, ⟨23, _⟩ => ⟨S262144x1, .i32⟩
  | .hbm, ⟨24, _⟩ => ⟨S262144x64, .f32⟩
  | .hbm, ⟨25, _⟩ => ⟨S_, .i32⟩
  | .hbm, ⟨26, _⟩ => ⟨S262144, .i32⟩
  | .hbm, ⟨27, _⟩ => ⟨S262144, .i1⟩
  | .hbm, ⟨28, _⟩ => ⟨S_, .i32⟩
  | .hbm, ⟨29, _⟩ => ⟨S262144, .i32⟩
  | .hbm, ⟨30, _⟩ => ⟨S262144, .i32⟩
  | .hbm, ⟨31, _⟩ => ⟨S262144, .i32⟩
  | .hbm, ⟨32, _⟩ => ⟨S262144x1, .i32⟩
  | .hbm, ⟨33, _⟩ => ⟨S262144x64, .f32⟩
  | .hbm, ⟨34, _⟩ => ⟨S64, .f32⟩
  | .hbm, ⟨35, _⟩ => ⟨S262144, .f32⟩
  | .hbm, ⟨36, _⟩ => ⟨S_, .f32⟩
  | .hbm, ⟨37, _⟩ => ⟨S8192x8192, .f32⟩
  | .hbm, ⟨38, _⟩ => ⟨S_, .i32⟩
  | .hbm, ⟨39, _⟩ => ⟨S262144, .i32⟩
  | .hbm, ⟨40, _⟩ => ⟨S262144, .i1⟩
  | .hbm, ⟨41, _⟩ => ⟨S_, .i32⟩
  | .hbm, ⟨42, _⟩ => ⟨S262144, .i32⟩
  | .hbm, ⟨43, _⟩ => ⟨S262144, .i32⟩
  | .hbm, ⟨44, _⟩ => ⟨S262144, .i32⟩
  | .hbm, ⟨45, _⟩ => ⟨S_, .i32⟩
  | .hbm, ⟨46, _⟩ => ⟨S262144, .i32⟩
  | .hbm, ⟨47, _⟩ => ⟨S262144, .i1⟩
  | .hbm, ⟨48, _⟩ => ⟨S_, .i32⟩
  | .hbm, ⟨49, _⟩ => ⟨S262144, .i32⟩
  | .hbm, ⟨50, _⟩ => ⟨S262144, .i32⟩
  | .hbm, ⟨51, _⟩ => ⟨S262144, .i32⟩
  | .hbm, ⟨52, _⟩ => ⟨S262144x1, .i32⟩
  | .hbm, ⟨53, _⟩ => ⟨S262144x1, .i32⟩
  | .hbm, ⟨54, _⟩ => ⟨S262144x2, .i32⟩
  | .hbm, ⟨55, _⟩ => ⟨S8192x8192, .f32⟩
  | .hbm, ⟨56, _⟩ => ⟨S8192x8192, .f32⟩
  | .local _ .vmem, ⟨0, _⟩ => ⟨S16384x64, .f32⟩
  | .local _ .vmem, ⟨1, _⟩ => ⟨S16384x64, .f32⟩
  | .local _ .vmem, ⟨2, _⟩ => ⟨S16384x64, .f32⟩
  | .local _ .vmem, ⟨3, _⟩ => ⟨S16384x64, .f32⟩
  | .local _ .vmem, ⟨4, _⟩ => ⟨S16384, .f32⟩
  | .local _ .vmem, ⟨5, _⟩ => ⟨S16384, .f32⟩
  | .local _ .vmem, ⟨6, _⟩ => ⟨S64, .f32⟩
  | .local _ .vmem, ⟨7, _⟩ => ⟨S64, .f32⟩
  | .local _ .vmem, ⟨8, _⟩ => ⟨S1, .f32⟩
  | .local _ .vmem, ⟨9, _⟩ => ⟨S16384, .f32⟩
  | .local _ .vmem, ⟨10, _⟩ => ⟨S16384, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .f32⟩
  | .local _ .vmem, ⟨18, _⟩ => ⟨S1024x1024, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst : Ref sig .tc := ⟨.hbm, 36, rfl⟩
abbrev main_v24 : Ref sig .tc := ⟨.hbm, 37, rfl⟩
abbrev main_c_3 : Ref sig .tc := ⟨.hbm, 38, rfl⟩
abbrev main_v25 : Ref sig .tc := ⟨.hbm, 39, rfl⟩
abbrev main_v26 : Ref sig .tc := ⟨.hbm, 40, rfl⟩
abbrev main_c_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S16384x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S16384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  slices_S256x64_S128x64_0_0 : S256x64.Slices ![0, 0] S128x64
  slices_S256x64_S128x64_128_0 : S256x64.Slices ![128, 0] S128x64
  bcast_S_S262144 : S_.BroadcastsInDim S262144 (![] : Fin 0 → Fin S262144.rank)
  bcast_S262144_S262144x1_0 : S262144.BroadcastsInDim S262144x1 (![0] : Fin 1 → Fin S262144x1.rank)
  shapeCasts_S64x1_S64 : S64x1.ShapeCasts S64
  inb_S16384x64_S16384x64_0_0 : ∀ a, (![0, 0] : Fin 2 → Nat) a + S16384x64.size a ≤ S16384x64.size a
  h_S16384x64 : 0 < S16384x64.numel
  shapeCasts_S16384x64_S16384x64 : S16384x64.ShapeCasts S16384x64
  inb_S64_S64_0 : ∀ a, (![0] : Fin 1 → Nat) a + S64.size a ≤ S64.size a
  h_S64 : 0 < S64.numel
  shapeCasts_S64_S1x64 : S64.ShapeCasts S1x64
  broadcasts_S1x64_S16384x64 : S1x64.Broadcasts S16384x64
  shapeCasts_S64_S64 : S64.ShapeCasts S64
  reduces_S16384x64_S16384 : S16384x64.Reduces [1] S16384
  inb_S1_S1_0 : ∀ a, (![0] : Fin 1 → Nat) a + S1.size a ≤ S1.size a
  h_S1 : 0 < S1.numel
  broadcasts_S1_S16384 : S1.Broadcasts S16384
  inb_S16384_S16384_0 : ∀ a, (![0] : Fin 1 → Nat) a + S16384.size a ≤ S16384.size a
  h_S16384 : 0 < S16384.numel
  bcast_S_S8192x8192 : S_.BroadcastsInDim S8192x8192 (![] : Fin 0 → Fin S8192x8192.rank)
  concatenates_S262144x1_S262144x1_S262144x2_d1 : Shape.Concatenates [S262144x1, S262144x1] S262144x2 1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  transposes_S1024x1024_p1_0_S1024x1024 : S1024x1024.Transposes [1, 0] S1024x1024
  dot_S8192x128_S128x64_S8192x64_1_0_0_1_n_n_wf : DotDims.WF S8192x128 S128x64 S8192x64 [1] [0] [0] [1] [] []
  gather_S8192x64_S262144x1_S262144x64_1_0_n_n_0_1_164_wf : GatherDims.WF S8192x64 S262144x1 S262144x64 [1] [0] [] [0] [] 1 ![1, 64]
  scatter_S8192x8192_S262144x2_S262144_n_01_01_1_wf : ScatterDims.WF S8192x8192 S262144x2 S262144 [] [0, 1] [0, 1] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x64.size a ≤ S262144x64.size a
  hwx0_0 : ∀ i : grid0.Coords, EltTy.bits .f32 = 32 ∨ (Rect.block (s := S262144x64) S16384x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384x64.size a ≤ S262144x64.size a
  hwx0_1 : ∀ i : grid0.Coords, EltTy.bits .f32 = 32 ∨ (Rect.block (s := S262144x64) S16384x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16384.size a ≤ S262144.size a
  hwx0_2 : ∀ i : grid0.Coords, EltTy.bits .f32 = 32 ∨ (Rect.block (s := S262144) S16384.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1.size a ≤ S1.size a
  hwx0_5 : ∀ i : grid0.Coords, EltTy.bits .f32 = 32 ∨ (Rect.block (s := S1) S1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S16384.size a ≤ S262144.size a
  hwx0_6 : ∀ i : grid0.Coords, EltTy.bits .f32 = 32 ∨ (Rect.block (s := S262144) S16384.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x8192.size a
  hwx1_0 : ∀ i : grid1.Coords, EltTy.bits .f32 = 32 ∨ (Rect.block (s := S8192x8192) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S8192x8192.size a
  hwx1_1 : ∀ i : grid1.Coords, EltTy.bits .f32 = 32 ∨ (Rect.block (s := S8192x8192) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x8192.size a
  hwx1_2 : ∀ i : grid1.Coords, EltTy.bits .f32 = 32 ∨ (Rect.block (s := S8192x8192) S1024x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x8192.size a
  hwx1_3 : ∀ i : grid1.Coords, EltTy.bits .f32 = 32 ∨ (Rect.block (s := S8192x8192) S1024x1024.size (cc1_transform_3 i) (hinb1_3 i)).WholeWords (EltTy.packing .f32)

variable [Facts₀]

def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def gather_S8192x64_S262144x1_S262144x64_1_0_n_n_0_1_164 : GatherDims S8192x64 S262144x1 S262144x64 where
  offsetDims := [1]
  collapsedSliceDims := [0]
  operandBatchingDims := []
  startIndicesBatchingDims := []
  startIndexMap := [0]
  indexVectorDim := 1
  sliceSizes := ![1, 64]
  wf := gather_S8192x64_S262144x1_S262144x64_1_0_n_n_0_1_164_wf
def scatter_S8192x8192_S262144x2_S262144_n_01_01_1 : ScatterDims S8192x8192 S262144x2 S262144 where
  updateWindowDims := []
  insertedWindowDims := [0, 1]
  scatterDimsToOperandDims := [0, 1]
  indexVectorDim := 1
  wf := scatter_S8192x8192_S262144x2_S262144_n_01_01_1_wf

abbrev win0_0 : Pipeline.Window sig grid0 :=
  Pipeline.Window.ofSpec (Memref.whole main_v14) S16384x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S16384x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16384.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S16384.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v38) S1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x128 : Shape := ⟨2, ![8192, 128]⟩
abbrev S8192x8192 : Shape := ⟨2, ![8192, 8192]⟩
abbrev S262144 : Shape := ⟨1, ![262144]⟩
abbrev S256x64 : Shape := ⟨2, ![256, 64]⟩
abbrev S64 : Shape := ⟨1, ![64]⟩
abbrev S64x1 : Shape := ⟨2, ![64, 1]⟩
abbrev S1 : Shape := ⟨1, ![1]⟩
abbrev S2x262144 : Shape := ⟨2, ![2, 262144]⟩
abbrev S1x262144 : Shape := ⟨2, ![1, 262144]⟩
abbrev S_ : Shape := ⟨0, ![]⟩
abbrev S262144x1 : Shape := ⟨2, ![262144, 1]⟩
abbrev S262144x128 : Shape := ⟨2, ![262144, 128]⟩
abbrev S262144x256 : Shape := ⟨2, ![262144, 256]⟩
abbrev S262144x64 : Shape := ⟨2, ![262144, 64]⟩
abbrev S1x64 : Shape := ⟨2, ![1, 64]⟩
abbrev S1x1 : Shape := ⟨2, ![1, 1]⟩
abbrev S262144x2 : Shape := ⟨2, ![262144, 2]⟩

abbrev nBuf : Space → Nat
  | .hbm => 82
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S262144, .f32⟩
  | .hbm, ⟨3, _⟩ => ⟨S256x64, .f32⟩
  | .hbm, ⟨4, _⟩ => ⟨S64, .f32⟩
  | .hbm, ⟨5, _⟩ => ⟨S64x1, .f32⟩
  | .hbm, ⟨6, _⟩ => ⟨S1, .f32⟩
  | .hbm, ⟨7, _⟩ => ⟨S2x262144, .i32⟩
  | .hbm, ⟨8, _⟩ => ⟨S1x262144, .i32⟩
  | .hbm, ⟨9, _⟩ => ⟨S262144, .i32⟩
  | .hbm, ⟨10, _⟩ => ⟨S1x262144, .i32⟩
  | .hbm, ⟨11, _⟩ => ⟨S262144, .i32⟩
  | .hbm, ⟨12, _⟩ => ⟨S_, .i32⟩
  | .hbm, ⟨13, _⟩ => ⟨S262144, .i32⟩
  | .hbm, ⟨14, _⟩ => ⟨S262144, .i1⟩
  | .hbm, ⟨15, _⟩ => ⟨S_, .i32⟩
  | .hbm, ⟨16, _⟩ => ⟨S262144, .i32⟩
  | .hbm, ⟨17, _⟩ => ⟨S262144, .i32⟩
  | .hbm, ⟨18, _⟩ => ⟨S262144, .i32⟩
  | .hbm, ⟨19, _⟩ => ⟨S262144x1, .i32⟩
  | .hbm, ⟨20, _⟩ => ⟨S262144x128, .f32⟩
  | .hbm, ⟨21, _⟩ => ⟨S_, .i32⟩
  | .hbm, ⟨22, _⟩ => ⟨S262144, .i32⟩
  | .hbm, ⟨23, _⟩ => ⟨S262144, .i1⟩
  | .hbm, ⟨24, _⟩ => ⟨S_, .i32⟩
  | .hbm, ⟨25, _⟩ => ⟨S262144, .i32⟩
  | .hbm, ⟨26, _⟩ => ⟨S262144, .i32⟩
  | .hbm, ⟨27, _⟩ => ⟨S262144, .i32⟩
  | .hbm, ⟨28, _⟩ => ⟨S262144x1, .i32⟩
  | .hbm, ⟨29, _⟩ => ⟨S262144x128, .f32⟩
  | .hbm, ⟨30, _⟩ => ⟨S262144x256, .f32⟩
  | .hbm, ⟨31, _⟩ => ⟨S262144x64, .f32⟩
  | .hbm, ⟨32, _⟩ => ⟨S1x64, .f32⟩
  | .hbm, ⟨33, _⟩ => ⟨S262144x64, .f32⟩
  | .hbm, ⟨34, _⟩ => ⟨S262144x64, .f32⟩
  | .hbm, ⟨35, _⟩ => ⟨S_, .f32⟩
  | .hbm, ⟨36, _⟩ => ⟨S262144x64, .f32⟩
  | .hbm, ⟨37, _⟩ => ⟨S262144x64, .f32⟩
  | .hbm, ⟨38, _⟩ => ⟨S262144x1, .f32⟩
  | .hbm, ⟨39, _⟩ => ⟨S1x1, .f32⟩
  | .hbm, ⟨40, _⟩ => ⟨S262144x1, .f32⟩
  | .hbm, ⟨41, _⟩ => ⟨S262144x1, .f32⟩
  | .hbm, ⟨42, _⟩ => ⟨S262144, .f32⟩
  | .hbm, ⟨43, _⟩ => ⟨S262144, .f32⟩
  | .hbm, ⟨44, _⟩ => ⟨S262144, .f32⟩
  | .hbm, ⟨45, _⟩ => ⟨S262144, .f32⟩
  | .hbm, ⟨46, _⟩ => ⟨S262144, .f32⟩
  | .hbm, ⟨47, _⟩ => ⟨S262144, .f32⟩
  | .hbm, ⟨48, _⟩ => ⟨S262144, .f32⟩
  | .hbm, ⟨49, _⟩ => ⟨S262144, .f32⟩
  | .hbm, ⟨50, _⟩ => ⟨S_, .f32⟩
  | .hbm, ⟨51, _⟩ => ⟨S262144, .f32⟩
  | .hbm, ⟨52, _⟩ => ⟨S262144, .f32⟩
  | .hbm, ⟨53, _⟩ => ⟨S_, .f32⟩
  | .hbm, ⟨54, _⟩ => ⟨S262144, .f32⟩
  | .hbm, ⟨55, _⟩ => ⟨S262144, .f32⟩
  | .hbm, ⟨56, _⟩ => ⟨S_, .f32⟩
  | .hbm, ⟨57, _⟩ => ⟨S8192x8192, .f32⟩
  | .hbm, ⟨58, _⟩ => ⟨S_, .i32⟩
  | .hbm, ⟨59, _⟩ => ⟨S262144, .i32⟩
  | .hbm, ⟨60, _⟩ => ⟨S262144, .i1⟩
  | .hbm, ⟨61, _⟩ => ⟨S_, .i32⟩
  | .hbm, ⟨62, _⟩ => ⟨S262144, .i32⟩
  | .hbm, ⟨63, _⟩ => ⟨S262144, .i32⟩
  | .hbm, ⟨64, _⟩ => ⟨S262144, .i32⟩
  | .hbm, ⟨65, _⟩ => ⟨S_, .i32⟩
  | .hbm, ⟨66, _⟩ => ⟨S262144, .i32⟩
  | .hbm, ⟨67, _⟩ => ⟨S262144, .i1⟩
  | .hbm, ⟨68, _⟩ => ⟨S_, .i32⟩
  | .hbm, ⟨69, _⟩ => ⟨S262144, .i32⟩
  | .hbm, ⟨70, _⟩ => ⟨S262144, .i32⟩
  | .hbm, ⟨71, _⟩ => ⟨S262144, .i32⟩
  | .hbm, ⟨72, _⟩ => ⟨S262144x1, .i32⟩
  | .hbm, ⟨73, _⟩ => ⟨S262144x1, .i32⟩
  | .hbm, ⟨74, _⟩ => ⟨S262144x2, .i32⟩
  | .hbm, ⟨75, _⟩ => ⟨S8192x8192, .f32⟩
  | .hbm, ⟨76, _⟩ => ⟨S8192x8192, .f32⟩
  | .hbm, ⟨77, _⟩ => ⟨S8192x8192, .f32⟩
  | .hbm, ⟨78, _⟩ => ⟨S_, .f32⟩
  | .hbm, ⟨79, _⟩ => ⟨S8192x8192, .f32⟩
  | .hbm, ⟨80, _⟩ => ⟨S8192x8192, .f32⟩
  | .hbm, ⟨81, _⟩ => ⟨S8192x8192, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call0_cst : Ref sig .tc := ⟨.hbm, 35, rfl⟩
abbrev main_call0_v0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst : Ref sig .tc := ⟨.hbm, 50, rfl⟩
abbrev main_v36 : Ref sig .tc := ⟨.hbm, 51, rfl⟩
abbrev main_v37 : Ref sig .tc := ⟨.hbm, 52, rfl⟩
abbrev main_cst_3 : Ref sig .tc := ⟨.hbm, 53, rfl⟩
abbrev main_v38 : Ref sig .tc := ⟨.hbm, 54, rfl⟩
abbrev main_v39 : Ref sig .tc := ⟨.hbm, 55, rfl⟩
abbrev main_cst_4 : Ref sig .tc := ⟨.hbm, 56, rfl⟩
abbrev main_v40 : Ref sig .tc := ⟨.hbm, 57, rfl⟩
abbrev main_c_5 : Ref sig .tc := ⟨.hbm, 58, rfl⟩
abbrev main_v41 : Ref sig .tc := ⟨.hbm, 59, rfl⟩
abbrev main_v42 : Ref sig .tc := ⟨.hbm, 60, rfl⟩
abbrev main_c_6 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_7 : Ref sig .tc := ⟨.hbm, 65, rfl⟩
abbrev main_v46 : Ref sig .tc := ⟨.hbm, 66, rfl⟩
abbrev main_v47 : Ref sig .tc := ⟨.hbm, 67, rfl⟩
abbrev main_c_8 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_9 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩

abbrev nD : Nat := 1
abbrev τ : Topo := Topo.v7x

variable {F : FTy → Type} [FloatOps F]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S262144_S262144x1_0 : S262144.BroadcastsInDim S262144x1 (![0] : Fin 1 → Fin S262144x1.rank)
  concatenates_S262144x128_S262144x128_S262144x256_d1 : Shape.Concatenates [S262144x128, S262144x128] S262144x256 1
  bcast_S64_S1x64_1 : S64.BroadcastsInDim S1x64 (![1] : Fin 1 → Fin S1x64.rank)
  bcast_S1x64_S262144x64_0_1 : S1x64.BroadcastsInDim S262144x64 (![0, 1] : Fin 2 → Fin S262144x64.rank)
  bcast_S_S262144x64 : S_.BroadcastsInDim S262144x64 (![] : Fin 0 → Fin S262144x64.rank)
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  shapeCasts_S262144x1_S262144 : S262144x1.ShapeCasts S262144
  bcast_S_S8192x8192 : S_.BroadcastsInDim S8192x8192 (![] : Fin 0 → Fin S8192x8192.rank)
  concatenates_S262144x1_S262144x1_S262144x2_d1 : Shape.Concatenates [S262144x1, S262144x1] S262144x2 1
  transposes_S8192x8192_S8192x8192_1_0 : S8192x8192.Transposes [1, 0] S8192x8192
  gather_S8192x128_S262144x1_S262144x128_1_0_n_n_0_1_1128_wf : GatherDims.WF S8192x128 S262144x1 S262144x128 [1] [0] [] [0] [] 1 ![1, 128]
  dot_S262144x256_S256x64_S262144x64_1_0_0_1_n_n_wf : DotDims.WF S262144x256 S256x64 S262144x64 [1] [0] [0] [1] [] []
  dot_S262144x64_S64x1_S262144x1_1_0_0_1_n_n_wf : DotDims.WF S262144x64 S64x1 S262144x1 [1] [0] [0] [1] [] []
  scatter_S8192x8192_S262144x2_S262144_n_01_01_1_wf : ScatterDims.WF S8192x8192 S262144x2 S262144 [] [0, 1] [0, 1] 1

variable [Facts₀]

def gather_S8192x128_S262144x1_S262144x128_1_0_n_n_0_1_1128 : GatherDims S8192x128 S262144x1 S262144x128 where
  offsetDims := [1]
  collapsedSliceDims := [0]
  operandBatchingDims := []
  startIndicesBatchingDims := []
  startIndexMap := [0]
  indexVectorDim := 1
  sliceSizes := ![1, 128]
  wf := gather_S8192x128_S262144x1_S262144x128_1_0_n_n_0_1_1128_wf
def dot_S262144x256_S256x64_S262144x64_1_0_0_1_n_n : DotDims S262144x256 S256x64 S262144x64 where
  lhsContracting := [1]
  rhsContracting := [0]
  lhsNonContracting := [0]
  rhsNonContracting := [1]
  lhsBatch := []
  rhsBatch := []
  wf := dot_S262144x256_S256x64_S262144x64_1_0_0_1_n_n_wf
def dot_S262144x64_S64x1_S262144x1_1_0_0_1_n_n : DotDims S262144x64 S64x1 S262144x1 where
  lhsContracting := [1]
  rhsContracting := [0]
  lhsNonContracting := [0]
  rhsNonContracting := [1]
  lhsBatch := []
  rhsBatch := []
  wf := dot_S262144x64_S64x1_S262144x1_1_0_0_1_n_n_wf
def scatter_S8192x8192_S262144x2_S262144_n_01_01_1 : ScatterDims S8192x8192 S262144x2 S262144 where
  updateWindowDims := []
  insertedWindowDims := [0, 1]
  scatterDimsToOperandDims := [0, 1]
  indexVectorDim := 1
  wf := scatter_S8192x8192_S262144x2_S262144_n_01_01_1_wf

class Facts : Prop extends Facts₀ where

variable [Facts]
-- ==== Proof.KBody0.lean ====
/-
  The first pallas_call (the per-edge gate), one grid point at a time, at ANY contents `V` of the core's buffers when
  the call is entered.

  A grid point's body reads six staged blocks — the two gathered first-layer halves, the noise block, and the whole
  bias / weight / bias vectors — and overwrites the seventh staging buffer with ONE store of the gate payload of those
  reads.  So after the body the output buffer is that payload (its single store covers the buffer), every input
  buffer is as it was found, and an input buffer holds its array's block at the point whether or not the pipeline
  re-fetched it there (an unfetched block has not moved).  These are the facts the pipeline's proof data records and
  the obligation its launch theorem asks of the body.
-/
import proofs.«160461_j85040352461208_2_alg».proof.Proof.Gen.Kernel.Launch
import proofs.«160461_j85040352461208_2_alg».proof.Proof.Gen.Kernel.Skeleton
import proofs.«160461_j85040352461208_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! The whole-buffer rectangles the body loads and stores through. -/
abbrev rowsRect : Rect S16384x64 := Rect.unit (s := S16384x64) ![0, 0] S16384x64.size inb_S16384x64_S16384x64_0_0
abbrev edgeRect : Rect S16384 := Rect.unit (s := S16384) ![0] S16384.size inb_S16384_S16384_0
abbrev laneRect : Rect S64 := Rect.unit (s := S64) ![0] S64.size inb_S64_S64_0
abbrev unitRect : Rect S1 := Rect.unit (s := S1) ![0] S1.size inb_S1_S1_0

/-- The output staging buffer after the body: its one store, the gate payload of the six input buffers. -/
def out0_6 (x0 x1 : Vec F S16384x64 .f32) (x2 : Vec F S16384 .f32) (x3 x4 : Vec F S64 .f32) (x5 : Vec F S1 .f32) : Vec F S16384 .f32 :=
  View.canon [⟨edgeRect, k0_pay1 (View.ld x0 rowsRect) (View.ld x1 rowsRect) (View.ld x3 laneRect) (View.ld x4 laneRect) (View.ld x5 unitRect) (View.ld x2 edgeRect)⟩]

/-- The one store covers the buffer. -/
theorem cover0_6 (p0 : Vec F S16384 .f32) (y : S16384.Idx) :
    ∃ pc ∈ ([⟨edgeRect, p0⟩] : List (View.Piece (Elt F) S16384 .f32)), y ∈ pc.1.set :=
  View.cover_of_tiled [⟨edgeRect, p0⟩] S16384.size (by rfl) y

set_option maxHeartbeats 1000000 in
/-- The body on whole staging memrefs: the inputs' at contents `xW`, the output's at anything; it ends with the inputs'
    as they were and the output's at `out0_6` of them. -/
theorem sound_kernel0 (c : Dev nD) (E : Set ℕ) (i : grid0.Coords)
    (arg1 : Memref sig .tc .vmem S16384x64 .f32) (harg1 : arg1.IsWhole) (arg2 : Memref sig .tc .vmem S16384x64 .f32) (harg2 : arg2.IsWhole)
    (arg3 : Memref sig .tc .vmem S16384 .f32) (harg3 : arg3.IsWhole) (arg4 : Memref sig .tc .vmem S64 .f32) (harg4 : arg4.IsWhole)
    (arg5 : Memref sig .tc .vmem S64 .f32) (harg5 : arg5.IsWhole) (arg6 : Memref sig .tc .vmem S1 .f32) (harg6 : arg6.IsWhole)
    (arg7 : Memref sig .tc .vmem S16384 .f32) (harg7 : arg7.IsWhole)
    (x0 x1 : Vec F S16384x64 .f32) (x2 : Vec F S16384 .f32) (x3 x4 : Vec F S64 .f32) (x5 : Vec F S1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E (cc0__mlp_gate_kernel i arg1 harg1 arg2 harg2 arg3 harg3 arg4 harg4 arg5 harg5 arg6 harg6 arg7 harg7) K := by
  simp only [cc0__mlp_gate_kernel_eq_skeleton]; unfold cc0__mlp_gate_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-- The proof data of the first pipeline on core `c`: the arrays as the call finds them; after the body at point `t`
    each input's buffer at its block and the output's at `out0_6` of the input blocks; the invariant the scoped
    buffers no window stages and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.KBody1.lean ====
/-
  The second pallas_call (symmetrise the mask and apply the adjacency), one grid point at a time, at ANY contents `V`
  of the core's buffers when the call is entered.

  A grid point's body reads three staged 1024×1024 tiles — the adjacency tile, the mask tile at the same position and
  the mask tile at the mirrored position — and overwrites the fourth staging buffer with ONE store of the payload of
  those reads.  The mask array is handed to the call twice, so the core's hold on it is dealt between the two windows
  that read it: one half of the full share each (neither window writes).
-/
import proofs.«160461_j85040352461208_2_alg».proof.Proof.Gen.Kernel.Launch
import proofs.«160461_j85040352461208_2_alg».proof.Proof.Gen.Kernel.Skeleton
import proofs.«160461_j85040352461208_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-tile rectangle the body loads and stores through. -/
abbrev tileRect : Rect S1024x1024 := Rect.unit (s := S1024x1024) ![0, 0] S1024x1024.size inb_S1024x1024_S1024x1024_0_0

/-- The output staging buffer after the body: its one store, the payload of the three input tiles. -/
def out1_3 (x0 x1 x2 : Vec F S1024x1024 .f32) : Vec F S1024x1024 .f32 :=
  View.canon [⟨tileRect, k1_pay1 (View.ld x1 tileRect) (View.ld x2 tileRect) (View.ld x0 tileRect)⟩]

/-- The one store covers the buffer. -/
theorem cover1_3 (p0 : Vec F S1024x1024 .f32) (y : S1024x1024.Idx) :
    ∃ pc ∈ ([⟨tileRect, p0⟩] : List (View.Piece (Elt F) S1024x1024 .f32)), y ∈ pc.1.set :=
  View.cover_of_tiled [⟨tileRect, p0⟩] S1024x1024.size (by rfl) y

set_option maxHeartbeats 1000000 in
/-- The body on whole staging memrefs: the inputs' at contents `xW`, the output's at anything; it ends with the inputs'
    as they were and the output's at `out1_3` of them. -/
theorem sound_kernel1 (c : Dev nD) (E : Set ℕ) (i : grid1.Coords)
    (arg2 : Memref sig .tc .vmem S1024x1024 .f32) (harg2 : arg2.IsWhole) (arg3 : Memref sig .tc .vmem S1024x1024 .f32) (harg3 : arg3.IsWhole)
    (arg4 : Memref sig .tc .vmem S1024x1024 .f32) (harg4 : arg4.IsWhole) (arg5 : Memref sig .tc .vmem S1024x1024 .f32) (harg5 : arg5.IsWhole)
    (x0 x1 x2 : Vec F S1024x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2)) -∗ K ⟨⟩))
      ⊢ wp frame (wpE (defs₀ (F := F)) Variants.none c none) E (cc1__sym_mask_kernel i arg2 harg2 arg3 harg3 arg4 harg4 arg5 harg5) K := by
  simp only [cc1__sym_mask_kernel_eq_skeleton]; unfold cc1__sym_mask_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of the second pipeline on core `c`: the arrays as the call finds them; after the body at point `t`
    each input's buffer at its block and the output's at `out1_3` of the input blocks; the invariant the scoped
    buffers no window stages and the generator register, untouched; nothing owed; the adjacency held whole, the mask
    array's full share dealt in halves to the two windows that read it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => fullShare
    | ⟨1, _⟩ => fullShare.left
    | ⟨2, _⟩ => fullShare.right
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.KRun.lean ====
/-
  The whole run of the program: host operations, the gate call, host operations (the scatter that builds the mask),
  the symmetrising call.

  Between two items every unscoped buffer of a core is held whole at a known valuation: the launch memory, then the
  fold of the first host stretch, then the same with the gate array at what the first pipeline's write-backs leave,
  then the fold of the second stretch, then the same with the result array at what the second pipeline's write-backs
  leave.  Each call is entered by splitting its windows' arrays out of that valuation and left by putting them back.
  The second call is handed the mask array through two windows: its points-to is halved at the entry and the two
  halves are joined again at the exit (both windows only read, so both halves still hold the entry contents).
  No item writes an argument array, so every argument ends as launched; the result array ends at the second
  pipeline's final contents, named here for the value claims.
-/
import proofs.«160461_j85040352461208_2_alg».proof.Proof.Gen.Kernel.Launch
import proofs.«160461_j85040352461208_2_alg».proof.Proof.Gen.Kernel.Skeleton
import proofs.«160461_j85040352461208_2_alg».proof.Proof.Gen.Kernel.Points
import proofs.«160461_j85040352461208_2_alg».proof.Proof.Gen.Kernel.Regions
import proofs.«160461_j85040352461208_2_alg».proof.Proof.KBody0
import proofs.«160461_j85040352461208_2_alg».proof.Proof.KBody1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => m (c, b)
/-- After the first host stretch (the gate call's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the gate call's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (the symmetrising call's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the symmetrising call's exit: the result array at what the pipeline leaves, every other buffer as entered
    (the call's other arrays are inputs). -/
def W4 (c : Dev nD) : Valuation τ sig (Elt F) :=
  Function.update (W3 m c) (Proc.devRef .tc main_v39) ((dat1 (V3 m) c).arrAt 3 cfg1.N)
theorem W4_main_v39 (c : Dev nD) : W4 m c (Proc.devRef .tc main_v39) = (dat1 (V3 m) c).arrAt 3 cfg1.N := by
  unfold W4; exact Function.update_self ..
theorem W4_of_ne (c : Dev nD) (b : Ref sig .tc) (hb : b ≠ main_v39) :
    W4 m c (Proc.devRef .tc b) = W3 m c (Proc.devRef .tc b) := by
  unfold W4; exact Function.update_of_ne (StableHlo.devRef_ne_of_ne hb) ..
abbrev V4 : (c : Dev nD) → (b : Ref sig .tc) → Buf (Elt F) ((c : Thread nD τ).loc b) := fun c b => W4 m c b

/-! ### No item writes an argument -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := (W2_arr m c 2).trans (((dat0 (V1 m) c).arrAt_in 2 rfl _).trans (A_eq0 (V1 m) c 2))
    _ = W0 m c (Proc.devRef .tc main_arg2) := StableHlo.after_of_writes_sub hostOps0 _ hostOps0_writes (by decide)
    _ = m ((c : Thread nD τ).loc main_arg2) := rfl

theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := (W2_arr m c 3).trans (((dat0 (V1 m) c).arrAt_in 3 rfl _).trans (A_eq0 (V1 m) c 3))
    _ = W0 m c (Proc.devRef .tc main_arg4) := StableHlo.after_of_writes_sub hostOps0 _ hostOps0_writes (by decide)
    _ = m ((c : Thread nD τ).loc main_arg4) := rfl

theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := StableHlo.after_of_writes_sub hostOps1 _ hostOps1_writes (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl

theorem W4_main_arg6 (c : Dev nD) : W4 m c (Proc.devRef .tc main_arg6) = m ((c : Thread nD τ).loc main_arg6) :=
  calc W4 m c (Proc.devRef .tc main_arg6)
    _ = W3 m c (Proc.devRef .tc main_arg6) := W4_of_ne m c main_arg6 (by decide)
    _ = W2 m c (Proc.devRef .tc main_arg6) := StableHlo.after_of_writes_sub hostOps1 _ hostOps1_writes (by decide)
    _ = W1 m c (Proc.devRef .tc main_arg6) := (W2_arr m c 5).trans (((dat0 (V1 m) c).arrAt_in 5 rfl _).trans (A_eq0 (V1 m) c 5))
    _ = W0 m c (Proc.devRef .tc main_arg6) := StableHlo.after_of_writes_sub hostOps0 _ hostOps0_writes (by decide)
    _ = m ((c : Thread nD τ).loc main_arg6) := rfl

theorem W4_main_arg7 (c : Dev nD) : W4 m c (Proc.devRef .tc main_arg7) = m ((c : Thread nD τ).loc main_arg7) :=
  calc W4 m c (Proc.devRef .tc main_arg7)
    _ = W3 m c (Proc.devRef .tc main_arg7) := W4_of_ne m c main_arg7 (by decide)
    _ = W2 m c (Proc.devRef .tc main_arg7) := StableHlo.after_of_writes_sub hostOps1 _ hostOps1_writes (by decide)
    _ = W1 m c (Proc.devRef .tc main_arg7) := W2_of_ne m c main_arg7 (by decide)
    _ = W0 m c (Proc.devRef .tc main_arg7) := StableHlo.after_of_writes_sub hostOps0 _ hostOps0_writes (by decide)
    _ = m ((c : Thread nD τ).loc main_arg7) := rfl

/-! ## The proof data family and the thread state -/

abbrev adm : (p : Fin 2) → (pcfgs (F := F) p).Adm := fun p => (cfgs p).toPCfg_adm
/-- Every pipeline's proof data, each at its call's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every item: the generator register at some state and the core's dues, none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The gate call as a segment -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The symmetrising call as a segment -/

/-- The buffers behind the second call's windows: the adjacency, the mask (twice), the result. -/
theorem arrImage1 : Finset.univ.image (Pipeline.arrRef spec1) = ([main_arg1, main_v38, main_v39] : List (Ref sig .tc)).toFinset := by decide

/-- The second pipeline's arrays, window by window, each a whole buffer at its share. -/
theorem arrays1_eq (V : (c : Dev nD) → (b : Ref sig .tc) → Buf (Elt F) ((c : Thread nD τ).loc b)) (c : Dev nD)
    (G : (w : Fin cfg1.W) → Buf (Elt F) ((cfg1.win w).arr.view.loc (c : Thread nD τ))) :
    ((dat1 V c).arrays G : sProp 𝕄) = iprop((((c : Thread nD τ).loc main_arg1) ↦{fullShare} G 0) ∗ (((c : Thread nD τ).loc main_v38) ↦{fullShare.left} G 1)
      ∗ (((c : Thread nD τ).loc main_v38) ↦{fullShare.right} G 2) ∗ (((c : Thread nD τ).loc main_v39) ↦{fullShare} G 3)) := by
  unfold Dat.arrays
  rw [bigSep_W1, (arr_whole1 0).set_eq_univ, (arr_whole1 1).set_eq_univ, (arr_whole1 3).set_eq_univ]
  rfl

/-- The buffers behind the second call's windows, one by one. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_arg1) ↦{fullShare} V main_arg1) ∗ (((c : Thread nD τ).loc main_v38) ↦{fullShare} V main_v38)
        ∗ (((c : Thread nD τ).loc main_v39) ↦{fullShare} V main_v39)) := by
  unfold Pipeline.arrBufs
  rw [bigSep_eq_bigSepL_of_eq [main_arg1, main_v38, main_v39] arrImage1 (by decide)]
  rfl

set_option backward.isDefEq.respectTransparency.types false in
/-- A core's unscoped buffers are the three buffers behind the second call's windows and the rest. -/
theorem unscopedBufs_split1 (c : Dev nD) (V : (b : Ref sig .tc) → Buf (Elt F) ((c : Thread nD τ).loc b)) :
    (unscopedBufs c V : sProp 𝕄) = iprop(Pipeline.arrBufs (Ix := Unit) (Name := ℕ) (U := UR sig nD τ) (Lvl := ℕ) spec1 c V
      ∗ Pipeline.unscopedRest (Ix := Unit) (Name := ℕ) (U := UR sig nD τ) (Lvl := ℕ) spec1 c V) :=
  Pipeline.unscopedBufs_split₀ cfgs 1 winFacts₀1.arr_unscoped c V

set_option backward.isDefEq.respectTransparency.types false in
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit : (StableHlo.held (c : Thread nD τ) (Pipeline.ucRefs τ sig) (W3 m c) : sProp 𝕄)
        ⊢ iprop((pdats m 1 c).arrays ((pdats m 1 c).arrAt · 0) ∗ Pipeline.unscopedRest (Ix := Unit) (Name := ℕ) (U := UR sig nD τ) (Lvl := ℕ) spec1 c (V3 m c)) := by
      rw [← Pipeline.unscopedBufs_held (Ix := Unit) (Name := ℕ) (U := UR sig nD τ) (Lvl := ℕ) c (W3 m c),
        unscopedBufs_split1 c (V3 m c), arrBufs1_eq c (V3 m c)]
      refine sep_mono ?_ .rfl
      rw [show (pdats m 1 c).arrays ((pdats m 1 c).arrAt · 0) = (dat1 (V3 m) c).arrays ((dat1 (V3 m) c).arrAt · 0) from rfl, arrays1_eq]
      iintro ⟨H1, H38, H39⟩
      ihave H38 := (pointsTo_share (PosShare.mem_left_op_right fullShare)).1 $$ H38
      icases H38 with ⟨Ha, Hb⟩
      isplitl [H1]; · iexact H1
      isplitl [Ha]; · iexact Ha
      isplitl [Hb]; · iexact Hb
      iexact H39
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest (Ix := Unit) (Name := ℕ) (U := UR sig nD τ) (Lvl := ℕ) spec1 c (V3 m c))
        ⊢ (StableHlo.held (c : Thread nD τ) (Pipeline.ucRefs τ sig) (W4 m c) : sProp 𝕄) := by
      rw [← Pipeline.unscopedBufs_held (Ix := Unit) (Name := ℕ) (U := UR sig nD τ) (Lvl := ℕ) c (W4 m c),
        unscopedBufs_split1 c (V4 m c), arrBufs1_eq c (V4 m c)]
      refine sep_mono ?_ (Entails.of_eq ?_)
      · rw [show (pdats m 1 c).arrays ((pdats m 1 c).arrAt · cfg1.N) = (dat1 (V3 m) c).arrays ((dat1 (V3 m) c).arrAt · cfg1.N) from rfl, arrays1_eq,
          (dat1 (V3 m) c).arrAt_in 0 rfl, (dat1 (V3 m) c).arrAt_in 1 rfl, (dat1 (V3 m) c).arrAt_in 2 rfl,
          show V4 m c main_arg1 = V3 m c main_arg1 from W4_of_ne m c main_arg1 (by decide),
          show V4 m c main_v38 = V3 m c main_v38 from W4_of_ne m c main_v38 (by decide),
          show V4 m c main_v39 = (dat1 (V3 m) c).arrAt 3 cfg1.N from W4_main_v39 m c]
        have hj38 : iprop((((c : Thread nD τ).loc main_v38) ↦{fullShare.left} V3 m c main_v38) ∗ (((c : Thread nD τ).loc main_v38) ↦{fullShare.right} V3 m c main_v38))
            ⊢ ((((c : Thread nD τ).loc main_v38) ↦{fullShare} V3 m c main_v38) : sProp 𝕄) := (pointsTo_share (PosShare.mem_left_op_right fullShare)).2
        iintro ⟨H1, Ha, Hb, H39⟩
        ihave H38 := hj38 $$ [Ha Hb]
        · isplitl [Ha]; · iexact Ha
          iexact Hb
        isplitl [H1]; · iexact H1
        isplitl [H38]; · iexact H38
        iexact H39
      · unfold Pipeline.unscopedRest
        exact bigSep_congr fun b hb => by
          rw [show V4 m c b = V3 m c b from W4_of_ne m c b fun e => (Finset.mem_sdiff.mp hb).2 (Finset.mem_image.mpr ⟨3, Finset.mem_univ _, e ▸ rfl⟩)]
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- From any memory with zero counters every weakly fair execution of the program terminates, nothing faulting; the
    result array ends at the second pipeline's final contents and every argument array as launched. -/
theorem run : θ_run defs (onTc (τ := τ) (main (F := F))) ⟨m, fun _ => 0, ρ⟩ (fun r => ∀ c : Dev nD,
      r.2.mem ((c.tc : Thread nD τ).loc main_v39) = (dat1 (V3 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v39 (by decide))).trans (W4_main_v39 m c),
       (h c _ (mem_uc main_arg0 (by decide))).trans (W4_main_arg0 m c),
       (h c _ (mem_uc main_arg1 (by decide))).trans (W4_main_arg1 m c),
       (h c _ (mem_uc main_arg2 (by decide))).trans (W4_main_arg2 m c),
       (h c _ (mem_uc main_arg3 (by decide))).trans (W4_main_arg3 m c),
       (h c _ (mem_uc main_arg4 (by decide))).trans (W4_main_arg4 m c),
       (h c _ (mem_uc main_arg5 (by decide))).trans (W4_main_arg5 m c),
       (h c _ (mem_uc main_arg6 (by decide))).trans (W4_main_arg6 m c),
       (h c _ (mem_uc main_arg7 (by decide))).trans (W4_main_arg7 m c)⟩)

end Cert.Kernel.Hand

end
-- ==== Proof.KIBody0.lean ====
/-
  The first pallas_call (the per-edge gate), one grid point at a time, at ANY contents `V` of the core's buffers when
  the call is entered.

  A grid point's body reads six staged blocks — the two gathered first-layer halves, the noise block, and the whole
  bias / weight / bias vectors — and overwrites the seventh staging buffer with ONE store of the gate payload of those
  reads.  So after the body the output buffer is that payload (its single store covers the buffer), every input
  buffer is as it was found, and an input buffer holds its array's block at the point whether or not the pipeline
  re-fetched it there (an unfetched block has not moved).  These are the facts the pipeline's proof data records and
  the obligation its launch theorem asks of the body.
-/
import proofs.«160461_j85040352461208_2_alg».proof.Proof.Gen.KernelIdeal.Launch
import proofs.«160461_j85040352461208_2_alg».proof.Proof.Gen.KernelIdeal.Skeleton
import proofs.«160461_j85040352461208_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! The whole-buffer rectangles the body loads and stores through. -/
abbrev rowsRect : Rect S16384x64 := Rect.unit (s := S16384x64) ![0, 0] S16384x64.size inb_S16384x64_S16384x64_0_0
abbrev edgeRect : Rect S16384 := Rect.unit (s := S16384) ![0] S16384.size inb_S16384_S16384_0
abbrev laneRect : Rect S64 := Rect.unit (s := S64) ![0] S64.size inb_S64_S64_0
abbrev unitRect : Rect S1 := Rect.unit (s := S1) ![0] S1.size inb_S1_S1_0

/-- The output staging buffer after the body: its one store, the gate payload of the six input buffers. -/
def out0_6 (x0 x1 : Vec F S16384x64 .f32) (x2 : Vec F S16384 .f32) (x3 x4 : Vec F S64 .f32) (x5 : Vec F S1 .f32) : Vec F S16384 .f32 :=
  View.canon [⟨edgeRect, k0_pay1 (View.ld x0 rowsRect) (View.ld x1 rowsRect) (View.ld x3 laneRect) (View.ld x4 laneRect) (View.ld x5 unitRect) (View.ld x2 edgeRect)⟩]

/-- The one store covers the buffer. -/
theorem cover0_6 (p0 : Vec F S16384 .f32) (y : S16384.Idx) :
    ∃ pc ∈ ([⟨edgeRect, p0⟩] : List (View.Piece (Elt F) S16384 .f32)), y ∈ pc.1.set :=
  View.cover_of_tiled [⟨edgeRect, p0⟩] S16384.size (by rfl) y

set_option maxHeartbeats 1000000 in
/-- The body on whole staging memrefs: the inputs' at contents `xW`, the output's at anything; it ends with the inputs'
    as they were and the output's at `out0_6` of them. -/
theorem sound_kernel0 (c : Dev nD) (E : Set ℕ) (i : grid0.Coords)
    (arg1 : Memref sig .tc .vmem S16384x64 .f32) (harg1 : arg1.IsWhole) (arg2 : Memref sig .tc .vmem S16384x64 .f32) (harg2 : arg2.IsWhole)
    (arg3 : Memref sig .tc .vmem S16384 .f32) (harg3 : arg3.IsWhole) (arg4 : Memref sig .tc .vmem S64 .f32) (harg4 : arg4.IsWhole)
    (arg5 : Memref sig .tc .vmem S64 .f32) (harg5 : arg5.IsWhole) (arg6 : Memref sig .tc .vmem S1 .f32) (harg6 : arg6.IsWhole)
    (arg7 : Memref sig .tc .vmem S16384 .f32) (harg7 : arg7.IsWhole)
    (x0 x1 : Vec F S16384x64 .f32) (x2 : Vec F S16384 .f32) (x3 x4 : Vec F S64 .f32) (x5 : Vec F S1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E (cc0__mlp_gate_kernel i arg1 harg1 arg2 harg2 arg3 harg3 arg4 harg4 arg5 harg5 arg6 harg6 arg7 harg7) K := by
  simp only [cc0__mlp_gate_kernel_eq_skeleton]; unfold cc0__mlp_gate_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-- The proof data of the first pipeline on core `c`: the arrays as the call finds them; after the body at point `t`
    each input's buffer at its block and the output's at `out0_6` of the input blocks; the invariant the scoped
    buffers no window stages and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KIBody1.lean ====
/-
  The second pallas_call (symmetrise the mask and apply the adjacency), one grid point at a time, at ANY contents `V`
  of the core's buffers when the call is entered.

  A grid point's body reads three staged 1024×1024 tiles — the adjacency tile, the mask tile at the same position and
  the mask tile at the mirrored position — and overwrites the fourth staging buffer with ONE store of the payload of
  those reads.  The mask array is handed to the call twice, so the core's hold on it is dealt between the two windows
  that read it: one half of the full share each (neither window writes).
-/
import proofs.«160461_j85040352461208_2_alg».proof.Proof.Gen.KernelIdeal.Launch
import proofs.«160461_j85040352461208_2_alg».proof.Proof.Gen.KernelIdeal.Skeleton
import proofs.«160461_j85040352461208_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-tile rectangle the body loads and stores through. -/
abbrev tileRect : Rect S1024x1024 := Rect.unit (s := S1024x1024) ![0, 0] S1024x1024.size inb_S1024x1024_S1024x1024_0_0

/-- The output staging buffer after the body: its one store, the payload of the three input tiles. -/
def out1_3 (x0 x1 x2 : Vec F S1024x1024 .f32) : Vec F S1024x1024 .f32 :=
  View.canon [⟨tileRect, k1_pay1 (View.ld x1 tileRect) (View.ld x2 tileRect) (View.ld x0 tileRect)⟩]

/-- The one store covers the buffer. -/
theorem cover1_3 (p0 : Vec F S1024x1024 .f32) (y : S1024x1024.Idx) :
    ∃ pc ∈ ([⟨tileRect, p0⟩] : List (View.Piece (Elt F) S1024x1024 .f32)), y ∈ pc.1.set :=
  View.cover_of_tiled [⟨tileRect, p0⟩] S1024x1024.size (by rfl) y

set_option maxHeartbeats 1000000 in
/-- The body on whole staging memrefs: the inputs' at contents `xW`, the output's at anything; it ends with the inputs'
    as they were and the output's at `out1_3` of them. -/
theorem sound_kernel1 (c : Dev nD) (E : Set ℕ) (i : grid1.Coords)
    (arg2 : Memref sig .tc .vmem S1024x1024 .f32) (harg2 : arg2.IsWhole) (arg3 : Memref sig .tc .vmem S1024x1024 .f32) (harg3 : arg3.IsWhole)
    (arg4 : Memref sig .tc .vmem S1024x1024 .f32) (harg4 : arg4.IsWhole) (arg5 : Memref sig .tc .vmem S1024x1024 .f32) (harg5 : arg5.IsWhole)
    (x0 x1 x2 : Vec F S1024x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2)) -∗ K ⟨⟩))
      ⊢ wp frame (wpE (defs₀ (F := F)) Variants.none c none) E (cc1__sym_mask_kernel i arg2 harg2 arg3 harg3 arg4 harg4 arg5 harg5) K := by
  simp only [cc1__sym_mask_kernel_eq_skeleton]; unfold cc1__sym_mask_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of the second pipeline on core `c`: the arrays as the call finds them; after the body at point `t`
    each input's buffer at its block and the output's at `out1_3` of the input blocks; the invariant the scoped
    buffers no window stages and the generator register, untouched; nothing owed; the adjacency held whole, the mask
    array's full share dealt in halves to the two windows that read it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => fullShare
    | ⟨1, _⟩ => fullShare.left
    | ⟨2, _⟩ => fullShare.right
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KIRun.lean ====
/-
  The whole run of the program: host operations, the gate call, host operations (the scatter that builds the mask),
  the symmetrising call.

  Between two items every unscoped buffer of a core is held whole at a known valuation: the launch memory, then the
  fold of the first host stretch, then the same with the gate array at what the first pipeline's write-backs leave,
  then the fold of the second stretch, then the same with the result array at what the second pipeline's write-backs
  leave.  Each call is entered by splitting its windows' arrays out of that valuation and left by putting them back.
  The second call is handed the mask array through two windows: its points-to is halved at the entry and the two
  halves are joined again at the exit (both windows only read, so both halves still hold the entry contents).
  No item writes an argument array, so every argument ends as launched; the result array ends at the second
  pipeline's final contents, named here for the value claims.
-/
import proofs.«160461_j85040352461208_2_alg».proof.Proof.Gen.KernelIdeal.Launch
import proofs.«160461_j85040352461208_2_alg».proof.Proof.Gen.KernelIdeal.Skeleton
import proofs.«160461_j85040352461208_2_alg».proof.Proof.Gen.KernelIdeal.Points
import proofs.«160461_j85040352461208_2_alg».proof.Proof.Gen.KernelIdeal.Regions
import proofs.«160461_j85040352461208_2_alg».proof.Proof.KIBody0
import proofs.«160461_j85040352461208_2_alg».proof.Proof.KIBody1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => m (c, b)
/-- After the first host stretch (the gate call's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the gate call's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (the symmetrising call's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the symmetrising call's exit: the result array at what the pipeline leaves, every other buffer as entered
    (the call's other arrays are inputs). -/
def W4 (c : Dev nD) : Valuation τ sig (Elt F) :=
  Function.update (W3 m c) (Proc.devRef .tc main_v39) ((dat1 (V3 m) c).arrAt 3 cfg1.N)
theorem W4_main_v39 (c : Dev nD) : W4 m c (Proc.devRef .tc main_v39) = (dat1 (V3 m) c).arrAt 3 cfg1.N := by
  unfold W4; exact Function.update_self ..
theorem W4_of_ne (c : Dev nD) (b : Ref sig .tc) (hb : b ≠ main_v39) :
    W4 m c (Proc.devRef .tc b) = W3 m c (Proc.devRef .tc b) := by
  unfold W4; exact Function.update_of_ne (StableHlo.devRef_ne_of_ne hb) ..
abbrev V4 : (c : Dev nD) → (b : Ref sig .tc) → Buf (Elt F) ((c : Thread nD τ).loc b) := fun c b => W4 m c b

/-! ### No item writes an argument -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := (W2_arr m c 2).trans (((dat0 (V1 m) c).arrAt_in 2 rfl _).trans (A_eq0 (V1 m) c 2))
    _ = W0 m c (Proc.devRef .tc main_arg2) := StableHlo.after_of_writes_sub hostOps0 _ hostOps0_writes (by decide)
    _ = m ((c : Thread nD τ).loc main_arg2) := rfl

theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := (W2_arr m c 3).trans (((dat0 (V1 m) c).arrAt_in 3 rfl _).trans (A_eq0 (V1 m) c 3))
    _ = W0 m c (Proc.devRef .tc main_arg4) := StableHlo.after_of_writes_sub hostOps0 _ hostOps0_writes (by decide)
    _ = m ((c : Thread nD τ).loc main_arg4) := rfl

theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := StableHlo.after_of_writes_sub hostOps1 _ hostOps1_writes (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl

theorem W4_main_arg6 (c : Dev nD) : W4 m c (Proc.devRef .tc main_arg6) = m ((c : Thread nD τ).loc main_arg6) :=
  calc W4 m c (Proc.devRef .tc main_arg6)
    _ = W3 m c (Proc.devRef .tc main_arg6) := W4_of_ne m c main_arg6 (by decide)
    _ = W2 m c (Proc.devRef .tc main_arg6) := StableHlo.after_of_writes_sub hostOps1 _ hostOps1_writes (by decide)
    _ = W1 m c (Proc.devRef .tc main_arg6) := (W2_arr m c 5).trans (((dat0 (V1 m) c).arrAt_in 5 rfl _).trans (A_eq0 (V1 m) c 5))
    _ = W0 m c (Proc.devRef .tc main_arg6) := StableHlo.after_of_writes_sub hostOps0 _ hostOps0_writes (by decide)
    _ = m ((c : Thread nD τ).loc main_arg6) := rfl

theorem W4_main_arg7 (c : Dev nD) : W4 m c (Proc.devRef .tc main_arg7) = m ((c : Thread nD τ).loc main_arg7) :=
  calc W4 m c (Proc.devRef .tc main_arg7)
    _ = W3 m c (Proc.devRef .tc main_arg7) := W4_of_ne m c main_arg7 (by decide)
    _ = W2 m c (Proc.devRef .tc main_arg7) := StableHlo.after_of_writes_sub hostOps1 _ hostOps1_writes (by decide)
    _ = W1 m c (Proc.devRef .tc main_arg7) := W2_of_ne m c main_arg7 (by decide)
    _ = W0 m c (Proc.devRef .tc main_arg7) := StableHlo.after_of_writes_sub hostOps0 _ hostOps0_writes (by decide)
    _ = m ((c : Thread nD τ).loc main_arg7) := rfl

/-! ## The proof data family and the thread state -/

abbrev adm : (p : Fin 2) → (pcfgs (F := F) p).Adm := fun p => (cfgs p).toPCfg_adm
/-- Every pipeline's proof data, each at its call's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every item: the generator register at some state and the core's dues, none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The gate call as a segment -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The symmetrising call as a segment -/

/-- The buffers behind the second call's windows: the adjacency, the mask (twice), the result. -/
theorem arrImage1 : Finset.univ.image (Pipeline.arrRef spec1) = ([main_arg1, main_v38, main_v39] : List (Ref sig .tc)).toFinset := by decide

/-- The second pipeline's arrays, window by window, each a whole buffer at its share. -/
theorem arrays1_eq (V : (c : Dev nD) → (b : Ref sig .tc) → Buf (Elt F) ((c : Thread nD τ).loc b)) (c : Dev nD)
    (G : (w : Fin cfg1.W) → Buf (Elt F) ((cfg1.win w).arr.view.loc (c : Thread nD τ))) :
    ((dat1 V c).arrays G : sProp 𝕄) = iprop((((c : Thread nD τ).loc main_arg1) ↦{fullShare} G 0) ∗ (((c : Thread nD τ).loc main_v38) ↦{fullShare.left} G 1)
      ∗ (((c : Thread nD τ).loc main_v38) ↦{fullShare.right} G 2) ∗ (((c : Thread nD τ).loc main_v39) ↦{fullShare} G 3)) := by
  unfold Dat.arrays
  rw [bigSep_W1, (arr_whole1 0).set_eq_univ, (arr_whole1 1).set_eq_univ, (arr_whole1 3).set_eq_univ]
  rfl

/-- The buffers behind the second call's windows, one by one. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_arg1) ↦{fullShare} V main_arg1) ∗ (((c : Thread nD τ).loc main_v38) ↦{fullShare} V main_v38)
        ∗ (((c : Thread nD τ).loc main_v39) ↦{fullShare} V main_v39)) := by
  unfold Pipeline.arrBufs
  rw [bigSep_eq_bigSepL_of_eq [main_arg1, main_v38, main_v39] arrImage1 (by decide)]
  rfl

set_option backward.isDefEq.respectTransparency.types false in
/-- A core's unscoped buffers are the three buffers behind the second call's windows and the rest. -/
theorem unscopedBufs_split1 (c : Dev nD) (V : (b : Ref sig .tc) → Buf (Elt F) ((c : Thread nD τ).loc b)) :
    (unscopedBufs c V : sProp 𝕄) = iprop(Pipeline.arrBufs (Ix := Unit) (Name := ℕ) (U := UR sig nD τ) (Lvl := ℕ) spec1 c V
      ∗ Pipeline.unscopedRest (Ix := Unit) (Name := ℕ) (U := UR sig nD τ) (Lvl := ℕ) spec1 c V) :=
  Pipeline.unscopedBufs_split₀ cfgs 1 winFacts₀1.arr_unscoped c V

set_option backward.isDefEq.respectTransparency.types false in
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit : (StableHlo.held (c : Thread nD τ) (Pipeline.ucRefs τ sig) (W3 m c) : sProp 𝕄)
        ⊢ iprop((pdats m 1 c).arrays ((pdats m 1 c).arrAt · 0) ∗ Pipeline.unscopedRest (Ix := Unit) (Name := ℕ) (U := UR sig nD τ) (Lvl := ℕ) spec1 c (V3 m c)) := by
      rw [← Pipeline.unscopedBufs_held (Ix := Unit) (Name := ℕ) (U := UR sig nD τ) (Lvl := ℕ) c (W3 m c),
        unscopedBufs_split1 c (V3 m c), arrBufs1_eq c (V3 m c)]
      refine sep_mono ?_ .rfl
      rw [show (pdats m 1 c).arrays ((pdats m 1 c).arrAt · 0) = (dat1 (V3 m) c).arrays ((dat1 (V3 m) c).arrAt · 0) from rfl, arrays1_eq]
      iintro ⟨H1, H38, H39⟩
      ihave H38 := (pointsTo_share (PosShare.mem_left_op_right fullShare)).1 $$ H38
      icases H38 with ⟨Ha, Hb⟩
      isplitl [H1]; · iexact H1
      isplitl [Ha]; · iexact Ha
      isplitl [Hb]; · iexact Hb
      iexact H39
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest (Ix := Unit) (Name := ℕ) (U := UR sig nD τ) (Lvl := ℕ) spec1 c (V3 m c))
        ⊢ (StableHlo.held (c : Thread nD τ) (Pipeline.ucRefs τ sig) (W4 m c) : sProp 𝕄) := by
      rw [← Pipeline.unscopedBufs_held (Ix := Unit) (Name := ℕ) (U := UR sig nD τ) (Lvl := ℕ) c (W4 m c),
        unscopedBufs_split1 c (V4 m c), arrBufs1_eq c (V4 m c)]
      refine sep_mono ?_ (Entails.of_eq ?_)
      · rw [show (pdats m 1 c).arrays ((pdats m 1 c).arrAt · cfg1.N) = (dat1 (V3 m) c).arrays ((dat1 (V3 m) c).arrAt · cfg1.N) from rfl, arrays1_eq,
          (dat1 (V3 m) c).arrAt_in 0 rfl, (dat1 (V3 m) c).arrAt_in 1 rfl, (dat1 (V3 m) c).arrAt_in 2 rfl,
          show V4 m c main_arg1 = V3 m c main_arg1 from W4_of_ne m c main_arg1 (by decide),
          show V4 m c main_v38 = V3 m c main_v38 from W4_of_ne m c main_v38 (by decide),
          show V4 m c main_v39 = (dat1 (V3 m) c).arrAt 3 cfg1.N from W4_main_v39 m c]
        have hj38 : iprop((((c : Thread nD τ).loc main_v38) ↦{fullShare.left} V3 m c main_v38) ∗ (((c : Thread nD τ).loc main_v38) ↦{fullShare.right} V3 m c main_v38))
            ⊢ ((((c : Thread nD τ).loc main_v38) ↦{fullShare} V3 m c main_v38) : sProp 𝕄) := (pointsTo_share (PosShare.mem_left_op_right fullShare)).2
        iintro ⟨H1, Ha, Hb, H39⟩
        ihave H38 := hj38 $$ [Ha Hb]
        · isplitl [Ha]; · iexact Ha
          iexact Hb
        isplitl [H1]; · iexact H1
        isplitl [H38]; · iexact H38
        iexact H39
      · unfold Pipeline.unscopedRest
        exact bigSep_congr fun b hb => by
          rw [show V4 m c b = V3 m c b from W4_of_ne m c b fun e => (Finset.mem_sdiff.mp hb).2 (Finset.mem_image.mpr ⟨3, Finset.mem_univ _, e ▸ rfl⟩)]
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- From any memory with zero counters every weakly fair execution of the program terminates, nothing faulting; the
    result array ends at the second pipeline's final contents and every argument array as launched. -/
theorem run : θ_run defs (onTc (τ := τ) (main (F := F))) ⟨m, fun _ => 0, ρ⟩ (fun r => ∀ c : Dev nD,
      r.2.mem ((c.tc : Thread nD τ).loc main_v39) = (dat1 (V3 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v39 (by decide))).trans (W4_main_v39 m c),
       (h c _ (mem_uc main_arg0 (by decide))).trans (W4_main_arg0 m c),
       (h c _ (mem_uc main_arg1 (by decide))).trans (W4_main_arg1 m c),
       (h c _ (mem_uc main_arg2 (by decide))).trans (W4_main_arg2 m c),
       (h c _ (mem_uc main_arg3 (by decide))).trans (W4_main_arg3 m c),
       (h c _ (mem_uc main_arg4 (by decide))).trans (W4_main_arg4 m c),
       (h c _ (mem_uc main_arg5 (by decide))).trans (W4_main_arg5 m c),
       (h c _ (mem_uc main_arg6 (by decide))).trans (W4_main_arg6 m c),
       (h c _ (mem_uc main_arg7 (by decide))).trans (W4_main_arg7 m c)⟩)

end Cert.KernelIdeal.Hand

end
-- ==== Proof.KIFlushed.lean ====
/-
  What a grid point writes back, in each of the two pallas_calls: the body's single store covers the output staging
  buffer and the windows are not clipped, so the block written back is the body's payload of the input blocks at the
  point.
-/
import proofs.«160461_j85040352461208_2_alg».proof.Proof.KIBody0
import proofs.«160461_j85040352461208_2_alg».proof.Proof.KIBody1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.ShloMosaic.Pipeline (Dat)

variable {F : FTy → Type} [FloatOps F]
variable (V : (c : Dev nD) → (b : Ref sig .tc) → Buf (Elt F) ((c : Thread nD τ).loc b))

theorem zeroOff1 : (![0] : Fin 1 → Nat) = fun _ => 0 := funext fun a => by fin_cases a; rfl
theorem zeroOff2 : (![0, 0] : Fin 2 → Nat) = fun _ => 0 := funext fun a => by fin_cases a <;> rfl

/-- The gate call at point `t` writes back the gate payload of its six input blocks. -/
theorem flushed0_6 (c : Dev nD) (t : Fin cfg0.N) :
    (dat0 V c).flushed 6 t = k0_pay1 (iblk0 V c 0 t) (iblk0 V c 1 t) (iblk0 V c 3 t) (iblk0 V c 4 t) (iblk0 V c 5 t) (iblk0 V c 2 t) := by
  show (cfg0.win 6).cut (grid0.coords t) ((dat0 V c).after 6 t) = _
  rw [after0_6]
  unfold out0_6
  rw [View.canon_unit_zero zeroOff1]
  simp only [View.ld_unit_zero (S := S16384x64) zeroOff2, View.ld_unit_zero (S := S16384) zeroOff1,
    View.ld_unit_zero (S := S64) zeroOff1, View.ld_unit_zero (S := S1) zeroOff1]
  rfl

/-- The symmetrising call at point `t` writes back the payload of its three input tiles. -/
theorem flushed1_3 (c : Dev nD) (t : Fin cfg1.N) :
    (dat1 V c).flushed 3 t = k1_pay1 (iblk1 V c 1 t) (iblk1 V c 2 t) (iblk1 V c 0 t) := by
  show (cfg1.win 3).cut (grid1.coords t) ((dat1 V c).after 3 t) = _
  rw [after1_3]
  unfold out1_3
  rw [View.canon_unit_zero zeroOff2]
  simp only [View.ld_unit_zero (S := S1024x1024) zeroOff2]
  rfl

end Cert.KernelIdeal.Hand

end
-- ==== Proof.KHost.lean ====
/-
  The values the kernel's host-side operations compute before its first call, as functions of the argument
  contents: the two index columns (the rows of the edge list, a negative entry moved up by the number of nodes), the
  two projected tables  embed · W1[0:128, :]  and  embed · W1[128:256, :]  looked up at those columns, and the
  second layer's weights as a flat vector.  Each term is spelt operation by operation as the program prints it.
-/
import proofs.«160461_j85040352461208_2_alg».proof.Proof.Gen.KernelIdeal
import Idealize.ShloMosaic.Lib.Pipeline.Value
import Idealize.ShloMosaic.Lib.ValueIdx

noncomputable section

namespace Cert.Hand.Gate

open Cert.KernelIdeal Cert.KernelIdeal.Gen Idealize.ShloMosaic Idealize.ShloMosaic.TcCoe Idealize.SL.Sem Idealize.ShloMosaic.StableHlo

variable {F : FTy → Type} [FloatOps F]

/-- Row `0` of the edge list as a flat vector. -/
def kSrc (x7 : (⟨S2x262144, .i32⟩ : BufTy).Contents (Elt F)) : (⟨S262144, .i32⟩ : BufTy).Contents (Elt F) :=
  shapeCast _ (extractStridedSlice S1x262144 ![0, 0] x7 slices_S2x262144_S1x262144_0_0) shapeCasts_S1x262144_S262144

/-- Row `1` of the edge list as a flat vector. -/
def kDst (x7 : (⟨S2x262144, .i32⟩ : BufTy).Contents (Elt F)) : (⟨S262144, .i32⟩ : BufTy).Contents (Elt F) :=
  shapeCast _ (extractStridedSlice S1x262144 ![1, 0] x7 slices_S2x262144_S1x262144_1_0) shapeCasts_S1x262144_S262144

/-- A flat vector of node numbers, a negative one moved up by `8192`, as an index column. -/
def kWrap (v : (⟨S262144, .i32⟩ : BufTy).Contents (Elt F)) : (⟨S262144x1, .i32⟩ : BufTy).Contents (Elt F) :=
  broadcastInDim S262144x1 ![0] bcast_S262144_S262144x1_0
    (select (cmpi .slt v (broadcastInDim S262144 ![] bcast_S_S262144 (constantI S_ 32 0#32)))
      (addi v (broadcastInDim S262144 ![] bcast_S_S262144 (constantI S_ 32 8192#32))) v)

/-- The index column of the edges' first ends. -/
def kRow (x7 : (⟨S2x262144, .i32⟩ : BufTy).Contents (Elt F)) : (⟨S262144x1, .i32⟩ : BufTy).Contents (Elt F) :=
  kWrap (kSrc x7)

/-- The index column of the edges' second ends. -/
def kCol (x7 : (⟨S2x262144, .i32⟩ : BufTy).Contents (Elt F)) : (⟨S262144x1, .i32⟩ : BufTy).Contents (Elt F) :=
  kWrap (kDst x7)

/-- The embedding projected by the upper half of the first layer's weights. -/
def kP1 (x0 : (⟨S8192x128, .f32⟩ : BufTy).Contents (Elt F)) (x3 : (⟨S256x64, .f32⟩ : BufTy).Contents (Elt F)) :
    (⟨S8192x64, .f32⟩ : BufTy).Contents (Elt F) :=
  Host.dotGeneral dot_S8192x128_S128x64_S8192x64_1_0_0_1_n_n none x0
    (extractStridedSlice S128x64 ![0, 0] x3 slices_S256x64_S128x64_0_0)

/-- The embedding projected by the lower half of the first layer's weights. -/
def kP2 (x0 : (⟨S8192x128, .f32⟩ : BufTy).Contents (Elt F)) (x3 : (⟨S256x64, .f32⟩ : BufTy).Contents (Elt F)) :
    (⟨S8192x64, .f32⟩ : BufTy).Contents (Elt F) :=
  Host.dotGeneral dot_S8192x128_S128x64_S8192x64_1_0_0_1_n_n none x0
    (extractStridedSlice S128x64 ![128, 0] x3 slices_S256x64_S128x64_128_0)

/-- The first projection at the edges' first ends. -/
def kG1 (x0 : (⟨S8192x128, .f32⟩ : BufTy).Contents (Elt F)) (x3 : (⟨S256x64, .f32⟩ : BufTy).Contents (Elt F))
    (x7 : (⟨S2x262144, .i32⟩ : BufTy).Contents (Elt F)) : (⟨S262144x64, .f32⟩ : BufTy).Contents (Elt F) :=
  Host.gather gather_S8192x64_S262144x1_S262144x64_1_0_n_n_0_1_164 (kP1 x0 x3) (kRow x7)

/-- The second projection at the edges' second ends. -/
def kG2 (x0 : (⟨S8192x128, .f32⟩ : BufTy).Contents (Elt F)) (x3 : (⟨S256x64, .f32⟩ : BufTy).Contents (Elt F))
    (x7 : (⟨S2x262144, .i32⟩ : BufTy).Contents (Elt F)) : (⟨S262144x64, .f32⟩ : BufTy).Contents (Elt F) :=
  Host.gather gather_S8192x64_S262144x1_S262144x64_1_0_n_n_0_1_164 (kP2 x0 x3) (kCol x7)

/-- The second layer's weights as a flat vector. -/
def kW2 (x5 : (⟨S64x1, .f32⟩ : BufTy).Contents (Elt F)) : (⟨S64, .f32⟩ : BufTy).Contents (Elt F) :=
  shapeCast _ x5 shapeCasts_S64x1_S64

/-! ## The same values, each written out as one term in the program's own operations -/

theorem kRow_spelt (x7 : (⟨S2x262144, .i32⟩ : BufTy).Contents (Elt F)) :
    kRow (F := F) x7 = broadcastInDim S262144x1 ![0] bcast_S262144_S262144x1_0
      (select (cmpi .slt (shapeCast _ (extractStridedSlice S1x262144 ![0, 0] x7 slices_S2x262144_S1x262144_0_0) shapeCasts_S1x262144_S262144)
          (broadcastInDim S262144 ![] bcast_S_S262144 (constantI S_ 32 0#32)))
        (addi (shapeCast _ (extractStridedSlice S1x262144 ![0, 0] x7 slices_S2x262144_S1x262144_0_0) shapeCasts_S1x262144_S262144)
          (broadcastInDim S262144 ![] bcast_S_S262144 (constantI S_ 32 8192#32)))
        (shapeCast _ (extractStridedSlice S1x262144 ![0, 0] x7 slices_S2x262144_S1x262144_0_0) shapeCasts_S1x262144_S262144)) := rfl

theorem kCol_spelt (x7 : (⟨S2x262144, .i32⟩ : BufTy).Contents (Elt F)) :
    kCol (F := F) x7 = broadcastInDim S262144x1 ![0] bcast_S262144_S262144x1_0
      (select (cmpi .slt (shapeCast _ (extractStridedSlice S1x262144 ![1, 0] x7 slices_S2x262144_S1x262144_1_0) shapeCasts_S1x262144_S262144)
          (broadcastInDim S262144 ![] bcast_S_S262144 (constantI S_ 32 0#32)))
        (addi (shapeCast _ (extractStridedSlice S1x262144 ![1, 0] x7 slices_S2x262144_S1x262144_1_0) shapeCasts_S1x262144_S262144)
          (broadcastInDim S262144 ![] bcast_S_S262144 (constantI S_ 32 8192#32)))
        (shapeCast _ (extractStridedSlice S1x262144 ![1, 0] x7 slices_S2x262144_S1x262144_1_0) shapeCasts_S1x262144_S262144)) := rfl

theorem kG1_spelt (x0 : (⟨S8192x128, .f32⟩ : BufTy).Contents (Elt F)) (x3 : (⟨S256x64, .f32⟩ : BufTy).Contents (Elt F))
    (x7 : (⟨S2x262144, .i32⟩ : BufTy).Contents (Elt F)) :
    kG1 (F := F) x0 x3 x7 = Host.gather gather_S8192x64_S262144x1_S262144x64_1_0_n_n_0_1_164
      (Host.dotGeneral dot_S8192x128_S128x64_S8192x64_1_0_0_1_n_n none x0 (extractStridedSlice S128x64 ![0, 0] x3 slices_S256x64_S128x64_0_0))
      (kRow (F := F) x7) := rfl

theorem kG2_spelt (x0 : (⟨S8192x128, .f32⟩ : BufTy).Contents (Elt F)) (x3 : (⟨S256x64, .f32⟩ : BufTy).Contents (Elt F))
    (x7 : (⟨S2x262144, .i32⟩ : BufTy).Contents (Elt F)) :
    kG2 (F := F) x0 x3 x7 = Host.gather gather_S8192x64_S262144x1_S262144x64_1_0_n_n_0_1_164
      (Host.dotGeneral dot_S8192x128_S128x64_S8192x64_1_0_0_1_n_n none x0 (extractStridedSlice S128x64 ![128, 0] x3 slices_S256x64_S128x64_128_0))
      (kCol (F := F) x7) := rfl

end Cert.Hand.Gate

end
-- ==== Proof.KIHost.lean ====
/-
  The kernel program's host operations, read off a valuation of the buffers.

  Folding the first host stretch over a valuation `W` leaves, in the buffers the gate call reads, the two gathered
  first-layer halves, the flattened second-layer weights and the two flattened index rows, each as a pure function of
  the argument buffers' contents under `W`; folding the second stretch leaves, in the mask buffer, the scatter-add of
  the gate array into the zero matrix at the (row, column) pairs built from the two index rows.
-/
import proofs.«160461_j85040352461208_2_alg».proof.Proof.Gen.KernelIdeal.Launch
import proofs.«160461_j85040352461208_2_alg».proof.Proof.KHost
import Idealize.ShloMosaic.Lib.StableHlo.Run

set_option maxRecDepth 16384

noncomputable section

namespace Cert.KernelIdeal.Hand

open Cert.KernelIdeal Cert.KernelIdeal.Gen Cert.Hand.Gate
open Idealize.ShloMosaic Idealize.ShloMosaic.TcCoe Idealize.SL.Sem Idealize.ShloMosaic.StableHlo

variable {F : FTy → Type} [FloatOps F]

/-- The mask: the gate array `g` scatter-added into the zero matrix at the positions (row, column) read off the two
    index rows `r`, `k` (each entry normalised, as the lookups normalise it). -/
def maskOf (r k : (⟨S262144, .i32⟩ : BufTy).Contents (Elt F)) (g : (⟨S262144, .f32⟩ : BufTy).Contents (Elt F)) :
    (⟨S8192x8192, .f32⟩ : BufTy).Contents (Elt F) :=
  Host.scatterAdd scatter_S8192x8192_S262144x2_S262144_n_01_01_1
    (broadcastInDim S8192x8192 ![] bcast_S_S8192x8192 (constant S_ .f32 0x00000000#32))
    (concatenate S262144x2 1 [⟨S262144x1, kWrap r⟩, ⟨S262144x1, kWrap k⟩] concatenates_S262144x1_S262144x1_S262144x2_d1) g

variable (W : Valuation τ sig (Elt F))

set_option maxHeartbeats 4000000 in
theorem after0_v1 : StableHlo.after hostOps0 W (Proc.devRef .tc main_v1) = kSrc (W (Proc.devRef .tc main_arg7)) := by
  after_results
  unfold kSrc
  rfl

set_option maxHeartbeats 4000000 in
theorem after0_v3 : StableHlo.after hostOps0 W (Proc.devRef .tc main_v3) = kDst (W (Proc.devRef .tc main_arg7)) := by
  after_results
  unfold kDst
  rfl

set_option maxHeartbeats 4000000 in
theorem after0_v14 : StableHlo.after hostOps0 W (Proc.devRef .tc main_v14)
    = kG1 (W (Proc.devRef .tc main_arg0)) (W (Proc.devRef .tc main_arg3)) (W (Proc.devRef .tc main_arg7)) := by
  after_results
  unfold kG1 kP1 kRow kWrap kSrc
  rfl

set_option maxHeartbeats 4000000 in
theorem after0_v21 : StableHlo.after hostOps0 W (Proc.devRef .tc main_v21)
    = kG2 (W (Proc.devRef .tc main_arg0)) (W (Proc.devRef .tc main_arg3)) (W (Proc.devRef .tc main_arg7)) := by
  after_results
  unfold kG2 kP2 kCol kWrap kDst
  rfl

set_option maxHeartbeats 4000000 in
theorem after0_v22 : StableHlo.after hostOps0 W (Proc.devRef .tc main_v22) = kW2 (W (Proc.devRef .tc main_arg5)) := by
  after_results
  unfold kW2
  rfl

set_option maxHeartbeats 4000000 in
theorem after1_v38 : StableHlo.after hostOps1 W (Proc.devRef .tc main_v38)
    = maskOf (W (Proc.devRef .tc main_v1)) (W (Proc.devRef .tc main_v3)) (W (Proc.devRef .tc main_v23)) := by
  after_results
  unfold maskOf kWrap
  rfl

end Cert.KernelIdeal.Hand

end
-- ==== Proof.Spec.lean ====
/-
  The three scalar formulas the two programs share, on the extended reals.

  * the gate of one edge from its noise sample n and its logit l:
      logistic ((log n − log1p (0 − n)) + l);
  * the logit from the 64 first-layer pre-activations z, the second layer's weights w and bias b:
      (Σ_j max (z j) 0 · w j) + b;
  * one entry of the symmetrised, masked adjacency from the adjacency entry a and the two mirrored
    mask entries:  a · (½ · (m_ij + m_ji)).

  The float literals are kept as bit patterns: the same words occur on both sides and are never evaluated.
-/
import Idealize.ShloMosaic.PureOps.Ideal
import Idealize.ShloMosaic.PureOps.Ideal.Laws
import Idealize.ShloMosaic.Lib.ValueIdx

noncomputable section

namespace Cert.Hand

open Idealize.ShloMosaic

/-- The float zero and one half, as the words both programs print. -/
abbrev fzero : EReal := Ideal.ofBits .f32 0x00000000#32
abbrev fhalf : EReal := Ideal.ofBits .f32 0x3F000000#32

/-- The concrete-sigmoid gate of an edge with noise sample `n` and logit `l`. -/
def gateOf (n l : EReal) : EReal := Ideal.logistic ((Ideal.log n - Ideal.log1p (fzero - n)) + l)

/-- The second layer on the rectified first-layer pre-activations `z`. -/
def logitOf (z w : Fin 64 → EReal) (b : EReal) : EReal := (∑ j : Fin 64, max (z j) fzero * w j) + b

/-- One entry of `adj ⊙ ½ (mask + maskᵀ)`. -/
def symOf (a mij mji : EReal) : EReal := a * (fhalf * (mij + mji))

end Cert.Hand

end
-- ==== Proof.GatePay.lean ====
/-
  The body of the gate kernel read at one edge: the stored block's entry r is the logistic of
  (log n − log1p (0 − n)) + logit, where n is the noise sample of the edge and the logit is the lane sum over the
  64 hidden units of max (g1 + g2 + b1) 0 · w2, plus the bias b2.
-/
import proofs.«160461_j85040352461208_2_alg».proof.Proof.Gen.KernelIdeal.Skeleton
import proofs.«160461_j85040352461208_2_alg».proof.Proof.Spec
import Idealize.ShloMosaic.Lib.ValueLayout
import Idealize.ShloMosaic.PureOps.Ideal.Laws

noncomputable section

namespace Cert.Hand.Pay

open Idealize.ShloMosaic Idealize.ShloMosaic.ValueIdx Cert.KernelIdeal Cert.KernelIdeal.Gen

/-- The elementwise logarithm, log1p and logistic at an index are the extended reals' functions of the element. -/
theorem log_apply {s : Shape} {φ : FTy} (a : FVec Ideal s φ) (i : s.Idx) : log a i = Ideal.log (a i) := rfl
theorem log1p_apply {s : Shape} {φ : FTy} (a : FVec Ideal s φ) (i : s.Idx) : log1p a i = Ideal.log1p (a i) := rfl
theorem logistic_apply {s : Shape} {φ : FTy} (a : FVec Ideal s φ) (i : s.Idx) : logistic a i = Ideal.logistic (a i) := rfl

/-- A length-64 vector viewed as one row and repeated over the 16384 rows reads, at (r, j), its entry j. -/
theorem row_apply (v : Vec Ideal S64 .f32) (hc : S64.ShapeCasts S1x64) (hb : S1x64.Broadcasts S16384x64) (r : Fin 16384) (j : Fin 64) :
    broadcastTo S16384x64 (shapeCast S1x64 v hc) hb (ix2 r j) = v (ix1 j) :=
  (broadcastTo_1b_ab_apply (shapeCast S1x64 v hc) hb r j).trans (shapeCast_a_1a_apply v hc 0 j)

/-- A one-entry vector repeated over the 16384 rows reads that entry everywhere. -/
theorem bias_apply (v : Vec Ideal S1 .f32) (hb : S1.Broadcasts S16384) (r : Fin 16384) :
    broadcastTo S16384 v hb (ix1 r) = v (ix1 0) :=
  broadcastTo_apply v hb (ix1 r) (ix1 0) (fun a => match a with | ⟨0, _⟩ => rfl)

/-- The sum over the lanes of a [16384, 64] block, read at row r, is the sum over the 64 lanes of that row. -/
theorem lane_sum_apply (src : FVec Ideal S16384x64 .f32) (h : S16384x64.Reduces [1] S16384) (hφ : FKind.Formats .f32)
    (hacc : (0x00000000#32 : BitVec 32) = 0x00000000#32) (r : Fin 16384) :
    multiReduction (F := Ideal) .add [1] S16384 src 0x00000000#32 h hφ hacc (ix1 r) = ∑ j : Fin 64, src (ix2 r j) := by
  refine (Ideal.multiReduction_add_single src 0x00000000#32 h hφ hacc (ix1 r)).trans ?_
  refine Finset.sum_congr rfl (fun j _ => congrArg src ?_)
  funext a
  match a with
  | ⟨0, _⟩ => rfl
  | ⟨1, _⟩ => rfl

/-- The stored block of the gate kernel at edge r. -/
theorem k0_pay1_apply (v0 v2 : Vec Ideal S16384x64 .f32) (v5 v11 : Vec Ideal S64 .f32) (v17 : Vec Ideal S1 .f32)
    (v20 : Vec Ideal S16384 .f32) (r : Fin 16384) :
    k0_pay1 (F := Ideal) v0 v2 v5 v11 v17 v20 (ix1 r)
      = Cert.Hand.gateOf (v20 (ix1 r))
          (Cert.Hand.logitOf (fun j => (v0 (ix2 r j) + v2 (ix2 r j)) + v5 (ix1 j)) (fun j => v11 (ix1 j)) (v17 (ix1 0))) := by
  unfold k0_pay1 Cert.Hand.gateOf Cert.Hand.logitOf
  simp only [shapeCast_self, logistic_apply, log_apply, log1p_apply, addf_apply, subf_apply, broadcast_apply]
  rw [lane_sum_apply _ reduces_S16384x64_S16384 _ _ r, bias_apply v17 broadcasts_S1_S16384 r]
  simp only [mulf_apply, maximumf_apply, addf_apply, broadcast_apply]
  have e5 : ∀ j : Fin 64, broadcastTo S16384x64 (shapeCast S1x64 v5 shapeCasts_S64_S1x64) broadcasts_S1x64_S16384x64 (ix2 r j)
      = v5 (ix1 j) := fun j => row_apply v5 shapeCasts_S64_S1x64 broadcasts_S1x64_S16384x64 r j
  have e11 : ∀ j : Fin 64, broadcastTo S16384x64 (shapeCast S1x64 v11 shapeCasts_S64_S1x64) broadcasts_S1x64_S16384x64 (ix2 r j)
      = v11 (ix1 j) := fun j => row_apply v11 shapeCasts_S64_S1x64 broadcasts_S1x64_S16384x64 r j
  simp only [e5, e11]
  rfl

end Cert.Hand.Pay

end
-- ==== Proof.GateArr.lean ====
/-
  From blocks to the whole array, for the gate kernel. The grid has 16 points; at point t the two gathered
  [262144, 64] tables are read at row block t (rows 16384·t …), the noise and the output at block t of their
  [262144] arrays, and the first layer's bias, the second layer's weights and its bias whole. So entry r of the
  output block at point t is the gate of edge 16384·t + r, computed from that edge's own rows and noise sample.
  The 16 output blocks tile the array, so the array ends as the per-edge gate formula entry by entry.
-/
import proofs.«160461_j85040352461208_2_alg».proof.Proof.Gen.KernelIdeal.Launch
import proofs.«160461_j85040352461208_2_alg».proof.Proof.Gen.KernelIdeal.Points
import proofs.«160461_j85040352461208_2_alg».proof.Proof.GatePay
import Idealize.ShloMosaic.Lib.Pipeline.Value

noncomputable section

namespace Cert.Hand.Blocks

open Idealize.ShloMosaic Idealize.ShloMosaic.ValueIdx Idealize.ShloMosaic.TcCoe Idealize.SL Idealize.SL.RA Idealize.SL.Sem
open Cert.KernelIdeal Cert.KernelIdeal.Gen

variable {Ix : Type} [DecidableEq Ix] {Name : Type} [DecidableEq Name] {U : Type} [URA U] {Lvl : Type}
variable {c : Dev nD} (dat : Pipeline.Dat τ (Elt Ideal) Ix Name U Lvl cfg0 c)

/-- The printed index maps, decided over the 16 grid points: the two tables' row blocks and the noise's block move
    with the output's, their column block and the three small arrays' blocks are block 0, and the output's block
    index stays below 16. -/
theorem gate_idx_facts : ∀ t : Fin cfg0.N,
    win0_0.index t (0 : Fin 2) = win0_6.index t (0 : Fin 1) ∧ win0_0.index t (1 : Fin 2) = 0
    ∧ win0_1.index t (0 : Fin 2) = win0_6.index t (0 : Fin 1) ∧ win0_1.index t (1 : Fin 2) = 0
    ∧ win0_2.index t (0 : Fin 1) = win0_6.index t (0 : Fin 1)
    ∧ win0_3.index t (0 : Fin 1) = 0 ∧ win0_4.index t (0 : Fin 1) = 0 ∧ win0_5.index t (0 : Fin 1) = 0
    ∧ win0_6.index t (0 : Fin 1) ≤ 15 :=
  (by decide +kernel : ∀ t : Fin grid0.N, _)

/-- Every block of the output array is some grid point's. -/
theorem gate_idx_onto : ∀ q0 : Fin 16, ∃ t : Fin cfg0.N, win0_6.index t = ![q0.val] :=
  (by decide +kernel : ∀ q0 : Fin 16, ∃ t : Fin grid0.N, win0_6.index t = ![q0.val])

/-- What the output array ends holding: edge by edge the gate of the edge's noise sample and its logit. -/
abbrev gateG (A0 A1 : S262144x64.Idx → EReal) (A2 : S262144.Idx → EReal) (A3 A4 : S64.Idx → EReal) (A5 : S1.Idx → EReal) :
    S262144.Idx → EReal :=
  fun i => Cert.Hand.gateOf (A2 i)
    (Cert.Hand.logitOf (fun j => (A0 (ix2 (i 0) j) + A1 (ix2 (i 0) j)) + A3 (ix1 j)) (fun j => A4 (ix1 j)) (A5 (ix1 0)))

/-- What grid point `t` writes back is block `t` of `gateG`, when it is the body's payload of the input blocks. -/
theorem gate_flushed_eq (A0 A1 : S262144x64.Idx → EReal) (A2 : S262144.Idx → EReal) (A3 A4 : S64.Idx → EReal)
    (A5 : S1.Idx → EReal)
    (h : ∀ t : Fin cfg0.N, dat.flushed 6 t = k0_pay1 (F := Ideal) (((cfg0.win 0).blk t).view.read (Elt Ideal) A0)
      (((cfg0.win 1).blk t).view.read (Elt Ideal) A1) (((cfg0.win 3).blk t).view.read (Elt Ideal) A3)
      (((cfg0.win 4).blk t).view.read (Elt Ideal) A4) (((cfg0.win 5).blk t).view.read (Elt Ideal) A5)
      (((cfg0.win 2).blk t).view.read (Elt Ideal) A2))
    (t : Fin cfg0.N) :
    dat.flushed 6 t = ((cfg0.win 6).blk t).view.read (Elt Ideal) (gateG A0 A1 A2 A3 A4 A5) := by
  rw [h t]
  obtain ⟨e00, e01, e10, e11, e2, e3, e4, e5, b6⟩ := gate_idx_facts t
  funext y
  obtain ⟨r, rfl⟩ : ∃ r : Fin 16384, y = ix1 r := ⟨y 0, eq_ix1 y⟩
  refine (Cert.Hand.Pay.k0_pay1_apply _ _ _ _ _ _ r).trans ?_
  show Cert.Hand.gateOf (A2 (((cfg0.win 2).blk t).view.emb (ix1 r)))
        (Cert.Hand.logitOf
          (fun j : Fin 64 => (A0 (((cfg0.win 0).blk t).view.emb (ix2 r j)) + A1 (((cfg0.win 1).blk t).view.emb (ix2 r j)))
            + A3 (((cfg0.win 3).blk t).view.emb (ix1 j)))
          (fun j : Fin 64 => A4 (((cfg0.win 4).blk t).view.emb (ix1 j)))
          (A5 (((cfg0.win 5).blk t).view.emb (ix1 (0 : Fin 1)))))
      = Cert.Hand.gateOf (A2 (((cfg0.win 6).blk t).view.emb (ix1 r)))
        (Cert.Hand.logitOf
          (fun j : Fin 64 => (A0 (ix2 ((((cfg0.win 6).blk t).view.emb (ix1 r)) 0) j)
            + A1 (ix2 ((((cfg0.win 6).blk t).view.emb (ix1 r)) 0) j)) + A3 (ix1 j))
          (fun j : Fin 64 => A4 (ix1 j))
          (A5 (ix1 (0 : Fin 1))))
  have hr : r.val < 16384 := r.isLt
  have h2 : ((cfg0.win 2).blk t).view.emb (ix1 r) = ((cfg0.win 6).blk t).view.emb (ix1 r) := by
    funext a; apply Fin.ext
    match a with
    | ⟨0, _⟩ => show win0_2.index t (0 : Fin 1) * 16384 + 1 * r.val = win0_6.index t (0 : Fin 1) * 16384 + 1 * r.val; omega
  have h0 : ∀ j : Fin 64, ((cfg0.win 0).blk t).view.emb (ix2 r j) = ix2 ((((cfg0.win 6).blk t).view.emb (ix1 r)) 0) j := by
    intro j; funext a; apply Fin.ext
    match a with
    | ⟨0, _⟩ => show win0_0.index t (0 : Fin 2) * 16384 + 1 * r.val = win0_6.index t (0 : Fin 1) * 16384 + 1 * r.val; omega
    | ⟨1, _⟩ => show win0_0.index t (1 : Fin 2) * 64 + 1 * j.val = j.val; omega
  have h1 : ∀ j : Fin 64, ((cfg0.win 1).blk t).view.emb (ix2 r j) = ix2 ((((cfg0.win 6).blk t).view.emb (ix1 r)) 0) j := by
    intro j; funext a; apply Fin.ext
    match a with
    | ⟨0, _⟩ => show win0_1.index t (0 : Fin 2) * 16384 + 1 * r.val = win0_6.index t (0 : Fin 1) * 16384 + 1 * r.val; omega
    | ⟨1, _⟩ => show win0_1.index t (1 : Fin 2) * 64 + 1 * j.val = j.val; omega
  have h3 : ∀ j : Fin 64, ((cfg0.win 3).blk t).view.emb (ix1 j) = ix1 j := by
    intro j; funext a; apply Fin.ext
    match a with
    | ⟨0, _⟩ => show win0_3.index t (0 : Fin 1) * 64 + 1 * j.val = j.val; omega
  have h4 : ∀ j : Fin 64, ((cfg0.win 4).blk t).view.emb (ix1 j) = ix1 j := by
    intro j; funext a; apply Fin.ext
    match a with
    | ⟨0, _⟩ => show win0_4.index t (0 : Fin 1) * 64 + 1 * j.val = j.val; omega
  have h5 : ((cfg0.win 5).blk t).view.emb (ix1 (0 : Fin 1)) = ix1 (0 : Fin 1) := by
    funext a; apply Fin.ext
    match a with
    | ⟨0, _⟩ => show win0_5.index t (0 : Fin 1) * 1 + 1 * 0 = 0; omega
  refine congr (congrArg Cert.Hand.gateOf (congrArg A2 h2)) ?_
  refine congr (congr (congrArg Cert.Hand.logitOf (funext fun j => ?_)) (funext fun j => congrArg A4 (h4 j))) (congrArg A5 h5)
  show (A0 (((cfg0.win 0).blk t).view.emb (ix2 r j)) + A1 (((cfg0.win 1).blk t).view.emb (ix2 r j)))
      + A3 (((cfg0.win 3).blk t).view.emb (ix1 j))
    = (A0 (ix2 ((((cfg0.win 6).blk t).view.emb (ix1 r)) 0) j) + A1 (ix2 ((((cfg0.win 6).blk t).view.emb (ix1 r)) 0) j))
      + A3 (ix1 j)
  rw [h0 j, h1 j, h3 j]
  rfl

/-- An index of the output array is in point `t`'s block iff its coordinate is in the block's range. -/
theorem gate_mem_blk (t : Fin cfg0.N) (i : S262144.Idx) :
    i ∈ ((cfg0.win 6).blk t).view.set ↔ ∀ a : Fin 1, win0_6.index t a * S16384.size a ≤ (i a).val
      ∧ (i a).val < win0_6.index t a * S16384.size a + S16384.size a := by
  show i ∈ ((View.whole main_v23).slice (win0_6.rect t)).set ↔ _
  rw [View.set_slice_whole, Rect.mem_set_unit]
  exact Iff.rfl

/-- Every edge lies in the block of some grid point: edge e in block e / 16384. -/
theorem gate_cover (i : S262144.Idx) :
    ∃ t : Fin cfg0.N, (cfg0.win 6).flush t = true ∧ i ∈ ((cfg0.win 6).blk t).view.set := by
  have hi0 : (i 0).val < 262144 := (i 0).isLt
  obtain ⟨t, ht⟩ := gate_idx_onto ⟨(i 0).val / 16384, by omega⟩
  have q0 : win0_6.index t (0 : Fin 1) = (i 0).val / 16384 := congrFun ht 0
  refine ⟨t, flush0_6 t, ?_⟩
  rw [gate_mem_blk]
  intro a
  match a with
  | ⟨0, _⟩ =>
    show win0_6.index t (0 : Fin 1) * 16384 ≤ (i 0).val ∧ (i 0).val < win0_6.index t (0 : Fin 1) * 16384 + 16384
    omega

/-- THE OUTPUT ARRAY after the 16 points: the per-edge gate, edge by edge. -/
theorem gate_array (A0 A1 : S262144x64.Idx → EReal) (A2 : S262144.Idx → EReal) (A3 A4 : S64.Idx → EReal)
    (A5 : S1.Idx → EReal)
    (h : ∀ t : Fin cfg0.N, dat.flushed 6 t = k0_pay1 (F := Ideal) (((cfg0.win 0).blk t).view.read (Elt Ideal) A0)
      (((cfg0.win 1).blk t).view.read (Elt Ideal) A1) (((cfg0.win 3).blk t).view.read (Elt Ideal) A3)
      (((cfg0.win 4).blk t).view.read (Elt Ideal) A4) (((cfg0.win 5).blk t).view.read (Elt Ideal) A5)
      (((cfg0.win 2).blk t).view.read (Elt Ideal) A2)) :
    dat.arrAt 6 cfg0.N = fun i => Cert.Hand.gateOf (A2 i)
      (Cert.Hand.logitOf (fun j => (A0 (ix2 (i 0) j) + A1 (ix2 (i 0) j)) + A3 (ix1 j)) (fun j => A4 (ix1 j)) (A5 (ix1 0))) :=
  dat.arrAt_eq_of_cover 6 (gateG A0 A1 A2 A3 A4 A5) (fun t _ => gate_flushed_eq dat A0 A1 A2 A3 A4 A5 h t) gate_cover

end Cert.Hand.Blocks

end
-- ==== Proof.SymPay.lean ====
/-
  The body of the symmetrising kernel read at one entry: entry (p, q) of the stored block is the adjacency
  entry times one half of the sum of the mask block's entry (p, q) and the mirrored block's entry (q, p);
  the body transposes the mirrored block, so its (p, q) entry is read at (q, p).
-/
import proofs.«160461_j85040352461208_2_alg».proof.Proof.Gen.KernelIdeal.Skeleton
import proofs.«160461_j85040352461208_2_alg».proof.Proof.Spec
import Idealize.ShloMosaic.Lib.Pipeline.Value
import Idealize.ShloMosaic.Lib.ValueIdx

noncomputable section

namespace Cert.Hand.Pay

open Idealize.ShloMosaic Idealize.ShloMosaic.ValueIdx Cert.KernelIdeal Cert.KernelIdeal.Gen

/-- The [1, 0] transpose of a square block read at (p, q) is the block at (q, p). -/
theorem transpose_sq_apply (x : Vec Ideal S1024x1024 .f32) (h : S1024x1024.Transposes [1, 0] S1024x1024) (p q : Fin 1024) :
    transpose S1024x1024 [1, 0] x h (ix2 p q) = x (ix2 q p) :=
  transpose_apply [1, 0] x h (ix2 p q) (ix2 q p) (fun b => match b with | ⟨0, _⟩ => rfl | ⟨1, _⟩ => rfl)

/-- The stored block of the symmetrising kernel at entry (p, q). -/
theorem k1_pay1_apply (v0 v2 v8 : Vec Ideal S1024x1024 .f32) (p q : Fin 1024) :
    k1_pay1 (F := Ideal) v0 v2 v8 (ix2 p q) = Cert.Hand.symOf (v8 (ix2 p q)) (v0 (ix2 p q)) (v2 (ix2 q p)) := by
  unfold k1_pay1 Cert.Hand.symOf
  simp only [shapeCast_self, mulf_apply, addf_apply, broadcast_apply]
  rw [transpose_sq_apply v2 transposes_S1024x1024_p1_0_S1024x1024 p q]
  rfl

end Cert.Hand.Pay

end
-- ==== Proof.SymArr.lean ====
/-
  From blocks to the whole array, for the symmetrising kernel. The grid is 8 × 8; at grid point (i, j) the
  adjacency, the mask and the output are read and written at block (i, j) of their [8192, 8192] arrays and the
  mask a second time at block (j, i). The body transposes that second block, so entry (p, q) of the output
  block reads the mask at row 1024·j + q, column 1024·i + p: the mirror of the output entry's own position
  (1024·i + p, 1024·j + q). The 64 output blocks tile the array, so the array ends as the symmetrised, masked
  adjacency entry by entry.
-/
import proofs.«160461_j85040352461208_2_alg».proof.Proof.Gen.KernelIdeal.Launch
import proofs.«160461_j85040352461208_2_alg».proof.Proof.Gen.KernelIdeal.Points
import proofs.«160461_j85040352461208_2_alg».proof.Proof.SymPay
import Idealize.ShloMosaic.Lib.Pipeline.Value

noncomputable section

namespace Cert.Hand.Blocks

open Idealize.ShloMosaic Idealize.ShloMosaic.ValueIdx Idealize.ShloMosaic.TcCoe Idealize.SL Idealize.SL.RA Idealize.SL.Sem
open Cert.KernelIdeal Cert.KernelIdeal.Gen

variable {Ix : Type} [DecidableEq Ix] {Name : Type} [DecidableEq Name] {U : Type} [URA U] {Lvl : Type}
variable {c : Dev nD} (dat : Pipeline.Dat τ (Elt Ideal) Ix Name U Lvl cfg1 c)

/-- The printed index maps, decided over the 64 grid points: the adjacency's and the mask's blocks move with the
    output's, the second mask block is the mirrored one, and the output's block indices stay below 8. -/
theorem sym_idx_facts : ∀ t : Fin cfg1.N,
    win1_0.index t (0 : Fin 2) = win1_3.index t (0 : Fin 2) ∧ win1_0.index t (1 : Fin 2) = win1_3.index t (1 : Fin 2)
    ∧ win1_1.index t (0 : Fin 2) = win1_3.index t (0 : Fin 2) ∧ win1_1.index t (1 : Fin 2) = win1_3.index t (1 : Fin 2)
    ∧ win1_2.index t (0 : Fin 2) = win1_3.index t (1 : Fin 2) ∧ win1_2.index t (1 : Fin 2) = win1_3.index t (0 : Fin 2)
    ∧ win1_3.index t (0 : Fin 2) ≤ 7 ∧ win1_3.index t (1 : Fin 2) ≤ 7 :=
  (by decide +kernel : ∀ t : Fin grid1.N, _)

/-- Every block of the output array is some grid point's. -/
theorem sym_idx_onto : ∀ (q0 q1 : Fin 8), ∃ t : Fin cfg1.N, win1_3.index t = ![q0.val, q1.val] :=
  (by decide +kernel : ∀ (q0 q1 : Fin 8), ∃ t : Fin grid1.N, win1_3.index t = ![q0.val, q1.val])

/-- What the output array ends holding: entry by entry the adjacency times one half of the mask plus its mirror. -/
abbrev symG (Aadj M : S8192x8192.Idx → EReal) : S8192x8192.Idx → EReal :=
  fun i => Cert.Hand.symOf (Aadj i) (M i) (M (ix2 (i 1) (i 0)))

/-- What grid point `t` writes back is block `t` of `symG`, when it is the body's payload of the input blocks. -/
theorem sym_flushed_eq (Aadj M : S8192x8192.Idx → EReal)
    (h : ∀ t : Fin cfg1.N, dat.flushed 3 t = k1_pay1 (F := Ideal) (((cfg1.win 1).blk t).view.read (Elt Ideal) M)
      (((cfg1.win 2).blk t).view.read (Elt Ideal) M) (((cfg1.win 0).blk t).view.read (Elt Ideal) Aadj))
    (t : Fin cfg1.N) :
    dat.flushed 3 t = ((cfg1.win 3).blk t).view.read (Elt Ideal) (symG Aadj M) := by
  rw [h t]
  obtain ⟨e00, e01, e10, e11, e20, e21, b0, b1⟩ := sym_idx_facts t
  funext y
  obtain ⟨p, q, rfl⟩ : ∃ (p q : Fin 1024), y = ix2 p q := ⟨y 0, y 1, eq_ix2 y⟩
  refine (Cert.Hand.Pay.k1_pay1_apply _ _ _ p q).trans ?_
  show Cert.Hand.symOf (Aadj (((cfg1.win 0).blk t).view.emb (ix2 p q))) (M (((cfg1.win 1).blk t).view.emb (ix2 p q)))
        (M (((cfg1.win 2).blk t).view.emb (ix2 q p)))
      = Cert.Hand.symOf (Aadj (((cfg1.win 3).blk t).view.emb (ix2 p q))) (M (((cfg1.win 3).blk t).view.emb (ix2 p q)))
        (M (ix2 ((((cfg1.win 3).blk t).view.emb (ix2 p q)) 1) ((((cfg1.win 3).blk t).view.emb (ix2 p q)) 0)))
  have hp : p.val < 1024 := p.isLt
  have hq : q.val < 1024 := q.isLt
  have h0 : ((cfg1.win 0).blk t).view.emb (ix2 p q) = ((cfg1.win 3).blk t).view.emb (ix2 p q) := by
    funext a; apply Fin.ext
    match a with
    | ⟨0, _⟩ => show win1_0.index t (0 : Fin 2) * 1024 + 1 * p.val = win1_3.index t (0 : Fin 2) * 1024 + 1 * p.val; omega
    | ⟨1, _⟩ => show win1_0.index t (1 : Fin 2) * 1024 + 1 * q.val = win1_3.index t (1 : Fin 2) * 1024 + 1 * q.val; omega
  have h1 : ((cfg1.win 1).blk t).view.emb (ix2 p q) = ((cfg1.win 3).blk t).view.emb (ix2 p q) := by
    funext a; apply Fin.ext
    match a with
    | ⟨0, _⟩ => show win1_1.index t (0 : Fin 2) * 1024 + 1 * p.val = win1_3.index t (0 : Fin 2) * 1024 + 1 * p.val; omega
    | ⟨1, _⟩ => show win1_1.index t (1 : Fin 2) * 1024 + 1 * q.val = win1_3.index t (1 : Fin 2) * 1024 + 1 * q.val; omega
  have h2 : ((cfg1.win 2).blk t).view.emb (ix2 q p)
      = ix2 ((((cfg1.win 3).blk t).view.emb (ix2 p q)) 1) ((((cfg1.win 3).blk t).view.emb (ix2 p q)) 0) := by
    funext a; apply Fin.ext
    match a with
    | ⟨0, _⟩ => show win1_2.index t (0 : Fin 2) * 1024 + 1 * q.val = win1_3.index t (1 : Fin 2) * 1024 + 1 * q.val; omega
    | ⟨1, _⟩ => show win1_2.index t (1 : Fin 2) * 1024 + 1 * p.val = win1_3.index t (0 : Fin 2) * 1024 + 1 * p.val; omega
  rw [h0, h1, h2]
  rfl

/-- An index of the output array is in point `t`'s block iff each coordinate is in the block's range on its axis. -/
theorem sym_mem_blk (t : Fin cfg1.N) (i : S8192x8192.Idx) :
    i ∈ ((cfg1.win 3).blk t).view.set ↔ ∀ a : Fin 2, win1_3.index t a * S1024x1024.size a ≤ (i a).val
      ∧ (i a).val < win1_3.index t a * S1024x1024.size a + S1024x1024.size a := by
  show i ∈ ((View.whole main_v39).slice (win1_3.rect t)).set ↔ _
  rw [View.set_slice_whole, Rect.mem_set_unit]
  exact Iff.rfl

/-- Every entry of the output array lies in the block of some grid point: entry (r, s) in block (r / 1024, s / 1024). -/
theorem sym_cover (i : S8192x8192.Idx) :
    ∃ t : Fin cfg1.N, (cfg1.win 3).flush t = true ∧ i ∈ ((cfg1.win 3).blk t).view.set := by
  have hi0 : (i 0).val < 8192 := (i 0).isLt
  have hi1 : (i 1).val < 8192 := (i 1).isLt
  obtain ⟨t, ht⟩ := sym_idx_onto ⟨(i 0).val / 1024, by omega⟩ ⟨(i 1).val / 1024, by omega⟩
  have q0 : win1_3.index t (0 : Fin 2) = (i 0).val / 1024 := congrFun ht 0
  have q1 : win1_3.index t (1 : Fin 2) = (i 1).val / 1024 := congrFun ht 1
  refine ⟨t, flush1_3 t, ?_⟩
  rw [sym_mem_blk]
  intro a
  match a with
  | ⟨0, _⟩ =>
    show win1_3.index t (0 : Fin 2) * 1024 ≤ (i 0).val ∧ (i 0).val < win1_3.index t (0 : Fin 2) * 1024 + 1024
    omega
  | ⟨1, _⟩ =>
    show win1_3.index t (1 : Fin 2) * 1024 ≤ (i 1).val ∧ (i 1).val < win1_3.index t (1 : Fin 2) * 1024 + 1024
    omega

/-- THE OUTPUT ARRAY after the 64 points: the adjacency times one half of the mask plus its transpose, entry by entry. -/
theorem sym_array (Aadj M : S8192x8192.Idx → EReal)
    (h : ∀ t : Fin cfg1.N, dat.flushed 3 t = k1_pay1 (F := Ideal) (((cfg1.win 1).blk t).view.read (Elt Ideal) M)
      (((cfg1.win 2).blk t).view.read (Elt Ideal) M) (((cfg1.win 0).blk t).view.read (Elt Ideal) Aadj)) :
    dat.arrAt 3 cfg1.N = fun i => Cert.Hand.symOf (Aadj i) (M i) (M (ix2 (i 1) (i 0))) :=
  dat.arrAt_eq_of_cover 3 (symG Aadj M) (fun t _ => sym_flushed_eq dat Aadj M h t) sym_cover

end Cert.Hand.Blocks

end
-- ==== Proof.SymRef.lean ====
/-
  The reference's last four operations read at one entry: the adjacency times the splat one half times the
  sum of the mask and its transpose is, at (i, j), the adjacency entry times one half of the sum of the
  mask's entries (i, j) and (j, i).
-/
import proofs.«160461_j85040352461208_2_alg».proof.Proof.Gen.ReferenceIdeal
import proofs.«160461_j85040352461208_2_alg».proof.Proof.Spec
import Idealize.ShloMosaic.Lib.ValueLayout

noncomputable section

namespace Cert.Hand.Pay

open Idealize.ShloMosaic Idealize.ShloMosaic.ValueIdx Cert.ReferenceIdeal Cert.ReferenceIdeal.Gen

/-- A splat scalar broadcast to the square array reads the scalar's word everywhere. -/
theorem splat_sq_apply (b : BitVec 32) (i j : Fin 8192) :
    broadcastInDim S8192x8192 ![] bcast_S_S8192x8192 (constant (F := Ideal) S_ .f32 b) (ix2 i j) = Ideal.ofBits .f32 b :=
  broadcastInDim_apply ![] bcast_S_S8192x8192 (constant (F := Ideal) S_ .f32 b) (ix2 i j) ix0 (fun a => a.elim0)

/-- The reference's symmetrised, masked adjacency at entry (i, j). -/
theorem ref_sym_apply (A M : (⟨S8192x8192, .f32⟩ : BufTy).Contents (Elt Ideal)) (i j : Fin 8192) :
    mulf A (mulf (broadcastInDim S8192x8192 ![] bcast_S_S8192x8192 (constant (F := Ideal) S_ .f32 0x3F000000#32))
      (addf M (transpose S8192x8192 [1, 0] M transposes_S8192x8192_S8192x8192_1_0))) (ix2 i j)
      = Cert.Hand.symOf (A (ix2 i j)) (M (ix2 i j)) (M (ix2 j i)) := by
  unfold Cert.Hand.symOf
  simp only [mulf_apply, addf_apply]
  rw [splat_sq_apply 0x3F000000#32 i j, transpose_ix2_apply M transposes_S8192x8192_S8192x8192_1_0 i j]

end Cert.Hand.Pay

end
-- ==== Proof.LibRowTake.lean ====
/-
  Row lookups and row accumulations with one integer index per row, read at an index.

  `x[idx]` for a table `x : [N]` or `x : [N, C]` and an index column `idx : [R, 1]` lowers to a gather whose start
  index is the column's entry, read signed and clamped into `[0, N - 1]`; the accumulation `.at[idx].add(u)` of
  rows `u : [R, C]` into `[N, C]` lowers to a scatter whose start index is the column's entry, read signed and NOT
  clamped: a row whose index falls outside `[0, N)` is dropped.  The lemmas below say which table element a result
  element reads, and which row an update row lands in.
-/
import Idealize.ShloMosaic.Lib.ValueIdx

noncomputable section

namespace Idealize.ShloMosaic.RowTake

open Idealize.ShloMosaic Idealize.ShloMosaic.ValueIdx

/-- A signed integer clamped into the rows `[0, N - 1]` of a table with `N > 0` rows. -/
def clampRow (N : Nat) (hN : 0 < N) (v : Int) : Fin N := ⟨min v.toNat (N - 1), by omega⟩

/-- An integer that already is a row is its own clamp. -/
theorem clampRow_of_eq {N : Nat} (hN : 0 < N) (v : Int) (r : Fin N) (h : v = (r.val : Int)) : clampRow N hN v = r := by
  refine Fin.ext ?_
  show min v.toNat (N - 1) = r.val
  have := r.isLt
  subst h
  rw [Int.toNat_natCast]
  omega

/-! ## A flat table `[N]` looked up at a column `[R, 1]` of indices -/

/-- The dimension numbers of `x[idx]` for `x : [N]`, `idx : [R, 1]`, result `[R]`. -/
abbrev flatDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Result element `e` reads the table at the clamp of the column's entry `e`. -/
theorem flat_operandIdx {N R w : Nat} (hN : 0 < N)
    (wf : GatherDims.WF ⟨1, ![N]⟩ ⟨2, ![R, 1]⟩ ⟨1, ![R]⟩ [] [0] [] [0] [] 1 ![1])
    (idx : IVec ⟨2, ![R, 1]⟩ w) (e : Fin R) :
    (flatDims N R wf).operandIdx (ix1 e) idx = ix1 (clampRow N hN (idx (ix2 e (0 : Fin 1))).toInt) := by
  funext a
  obtain rfl : a = 0 := Subsingleton.elim _ _
  refine Fin.ext ?_
  show (flatDims N R wf).start (ix1 e) idx 0 + (flatDims N R wf).batchCoord (ix1 e) 0
    + (flatDims N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N R wf).startIndexMap from List.mem_singleton.mpr rfl)]
  have hsi : (flatDims N R wf).siIdx (ix1 e) ⟨List.idxOf (0 : Fin 1) (flatDims N R wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## A table of rows `[N, C]` looked up at a column `[R, 1]` of indices -/

/-- The dimension numbers of `x[idx]` for `x : [N, C]`, `idx : [R, 1]`, result `[R, C]`. -/
abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- On the row axis the operand index is the clamp of the column's entry. -/
theorem row_operandIdx_row {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (e : Fin R) (c : Fin C) :
    ((rowDims N C R wf).operandIdx (ix2 e c) idx (0 : Fin 2)).val = (clampRow N hN (idx (ix2 e (0 : Fin 1))).toInt).val := by
  show (rowDims N C R wf).start (ix2 e c) idx (0 : Fin 2) + (rowDims N C R wf).batchCoord (ix2 e c) (0 : Fin 2)
    + (rowDims N C R wf).offCoord (ix2 e c) (0 : Fin 2) = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowDims N C R wf).startIndexMap from List.mem_singleton.mpr rfl)]
  have hsi : (rowDims N C R wf).siIdx (ix2 e c) ⟨List.idxOf (0 : Fin 2) (rowDims N C R wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On the lane axis the operand index is the result's lane. -/
theorem row_operandIdx_lane {N C R w : Nat}
    (wf : GatherDims.WF ⟨2, ![N, C]⟩ ⟨2, ![R, 1]⟩ ⟨2, ![R, C]⟩ [1] [0] [] [0] [] 1 ![1, C])
    (idx : IVec ⟨2, ![R, 1]⟩ w) (e : Fin R) (c : Fin C) :
    ((rowDims N C R wf).operandIdx (ix2 e c) idx (1 : Fin 2)).val = c.val := by
  show (rowDims N C R wf).start (ix2 e c) idx (1 : Fin 2) + (rowDims N C R wf).batchCoord (ix2 e c) (1 : Fin 2)
    + (rowDims N C R wf).offCoord (ix2 e c) (1 : Fin 2) = _
  have h10 : (1 : Fin 2) ∉ ([0] : List (Fin 2)) := by decide
  have hs : (rowDims N C R wf).start (ix2 e c) idx (1 : Fin 2) = 0 := by
    unfold GatherDims.start
    rw [dif_neg (show (1 : Fin 2) ∉ (rowDims N C R wf).startIndexMap from h10)]
  have ho : (rowDims N C R wf).offCoord (ix2 e c) (1 : Fin 2) = c.val := by
    unfold GatherDims.offCoord
    rw [dif_pos ((GatherDims.mem_sKept _ _).mpr ⟨h10, List.not_mem_nil⟩)]
    rfl
  rw [GatherDims.batchCoord_eq_zero _ _ _ List.not_mem_nil, hs, ho]; omega

/-- Result element `(e, c)` reads the table's row at the clamp of the column's entry `e`, in lane `c`. -/
theorem row_operandIdx {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (e : Fin R) (c : Fin C) :
    (rowDims N C R wf).operandIdx (ix2 e c) idx = ix2 (clampRow N hN (idx (ix2 e (0 : Fin 1))).toInt) c := by
  funext a
  refine Fin.ext ?_
  match a with
  | ⟨0, _⟩ => exact row_operandIdx_row hN wf idx e c
  | ⟨1, _⟩ => exact row_operandIdx_lane wf idx e c

/-! ## Rows `[R, C]` accumulated into a table `[N, C]` at a column `[R, 1]` of indices -/

/-- The dimension numbers of `x.at[idx].add(u)` for `x : [N, C]`, `idx : [R, 1]`, `u : [R, C]`. -/
abbrev rowScatterDims (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- An update element `(e, c)` that lands on table element `i` has the column's entry `e`, read signed, equal to
    `i`'s row: the row index is not clamped, and a row outside the table lands nowhere. -/
theorem rowScatter_row_of_some {N C R w : Nat}
    (wf : ScatterDims.WF ⟨2, ![N, C]⟩ ⟨2, ![R, 1]⟩ ⟨2, ![R, C]⟩ [1] [0] [0] 1)
    (idx : IVec ⟨2, ![R, 1]⟩ w) (e : Fin R) (c : Fin C) (i : (⟨2, ![N, C]⟩ : Shape).Idx)
    (h : (rowScatterDims N C R wf).resultIdx? (ix2 e c) idx = some i) :
    (idx (ix2 e (0 : Fin 1))).toInt = ((i 0).val : Int) := by
  have hs : (rowScatterDims N C R wf).start (ix2 e c) idx (0 : Fin 2) = (idx (ix2 e (0 : Fin 1))).toInt := by
    unfold ScatterDims.start
    rw [dif_pos (show (0 : Fin 2) ∈ (rowScatterDims N C R wf).scatterDimsToOperandDims from List.mem_singleton.mpr rfl)]
    have hsi : (rowScatterDims N C R wf).siIdx (ix2 e c) ⟨List.idxOf (0 : Fin 2) (rowScatterDims N C R wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw : (rowScatterDims N C R wf).window (ix2 e c) (0 : Fin 2) = 0 := by
    unfold ScatterDims.window
    rw [dif_neg (show (0 : Fin 2) ∉ (rowScatterDims N C R wf).sKept from
      (by decide : (0 : Fin 2) ∉ (List.finRange 2).filter (fun a => a ∉ ([0] : List (Fin 2)))))]
  unfold ScatterDims.resultIdx? at h
  split at h
  · rename_i hin
    have h0 := congrArg (fun f => (f (0 : Fin 2)).val) (Option.some.inj h)
    have hb := hin (0 : Fin 2)
    rw [hs, hw] at hb
    simp only [hs, hw] at h0
    have h0' : ((idx (ix2 e (0 : Fin 1))).toInt + ((0 : Nat) : Int)).toNat = (i 0).val := h0
    omega
  · exact absurd h (by simp)

end Idealize.ShloMosaic.RowTake

end
-- ==== Proof.GateLemmas.lean ====
/-
  Small general facts the gate's two readings share: a row lookup read at an entry, a sum over 256 terms cut
  into its two halves, the float word of 1, and the logistic function written with a quotient.
-/
import Idealize.ShloMosaic.PureOps.Ideal
import Idealize.ShloMosaic.PureOps.Ideal.Laws
import Idealize.ShloMosaic.PureOps.IdealRules
import Idealize.ShloMosaic.Lib.ValueIdx
import proofs.«160461_j85040352461208_2_alg».proof.Proof.LibRowTake

noncomputable section

namespace Cert.Hand.Gate

open Idealize.ShloMosaic Idealize.ShloMosaic.ValueIdx Idealize.ShloMosaic.RowTake

/-- The table row an index column's entry `e` names: the entry read signed and clamped into the table. -/
def rowOf {R w : Nat} (N : Nat) (hN : 0 < N) (col : IVec ⟨2, ![R, 1]⟩ w) (e : Fin R) : Fin N :=
  clampRow N hN (col (ix2 e (0 : Fin 1))).toInt

/-- A lookup of rows of an `[N, C]` table at an index column, read at entry `(e, c)`. -/
theorem gather_row_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (col : IVec ⟨2, ![R, 1]⟩ w) (e : Fin R) (c : Fin C) :
    Host.gather (rowDims N C R wf) x col (ix2 e c) = x (ix2 (rowOf N hN col e) c) :=
  congrArg x (row_operandIdx hN wf col e c)

/-- A sum over `256` terms is the sum of its first `128` and its last `128`. -/
theorem sum_split_256 (f : Fin 256 → EReal) :
    ∑ k : Fin 256, f k
      = ∑ k : Fin 128, f ⟨k.val, by omega⟩ + ∑ k : Fin 128, f ⟨128 + k.val, by omega⟩ :=
  Fin.sum_univ_add (a := 128) (b := 128) (f : Fin (128 + 128) → EReal)

/-- The float word `0x3F800000` is one. -/
theorem one_f32 : Ideal.ofBits .f32 0x3F800000#32 = 1 := by
  simp [Ideal.ofBits, Ideal.ieee, -EReal.coe_mul]; norm_num

/-- Zero less `n` is `n` negated. -/
theorem zero_f32_sub (n : EReal) : Ideal.ofBits .f32 0x00000000#32 - n = -n := by
  rw [Ideal.ofBits_zero_f32, sub_eq_add_neg, zero_add]

end Cert.Hand.Gate

end
-- ==== Proof.GateRefRead.lean ====
/-
  The reference's gate read at an edge: the chain of its operations from the quotient  1 / (1 + exp (−·))  down to
  the first layer's product, the product's sum over the 256 concatenated coordinates cut at 128, and each half
  read through the concatenation and the row lookup down to the embedding table.
-/
import proofs.«160461_j85040352461208_2_alg».proof.Proof.Gen.ReferenceIdeal.Read
import proofs.«160461_j85040352461208_2_alg».proof.Proof.Spec
import proofs.«160461_j85040352461208_2_alg».proof.Proof.GateLemmas

noncomputable section

namespace Cert.Hand.Gate

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx Idealize.ShloMosaic.RowTake

/-! ## The concatenated lookups at an entry -/

/-- A coordinate below `128` of the concatenation is the embedding of the edge's first end. -/
theorem ref_v18_left (x0 : (⟨S8192x128, .f32⟩ : BufTy).Contents (Elt Ideal)) (x7 : (⟨S2x262144, .i32⟩ : BufTy).Contents (Elt Ideal)) (e : Fin 262144) (k : Fin 128) :
    val_main_v18 (F := Ideal) x0 x7 (ix2 e (⟨k.val, by omega⟩ : Fin 256))
      = x0 (ix2 (rowOf 8192 (by decide) (val_main_v9 (F := Ideal) x7) e) k) := by
  unfold val_main_v18
  refine (concatenate_pair_apply_left 1 (val_main_v10 (F := Ideal) x0 x7) (val_main_v17 (F := Ideal) x0 x7)
    concatenates_S262144x128_S262144x128_S262144x256_d1 (ix2 e (⟨k.val, by omega⟩ : Fin 256)) rfl (ix2 e k)
    (fun b => match b with
      | ⟨0, _⟩ => rfl
      | ⟨1, _⟩ => rfl)).trans ?_
  unfold val_main_v10
  exact gather_row_apply (N := 8192) (C := 128) (R := 262144) (by decide)
    gather_S8192x128_S262144x1_S262144x128_1_0_n_n_0_1_1128_wf x0 (val_main_v9 (F := Ideal) x7) e k

/-- A coordinate `128 + k` of the concatenation is the embedding of the edge's second end at `k`. -/
theorem ref_v18_right (x0 : (⟨S8192x128, .f32⟩ : BufTy).Contents (Elt Ideal)) (x7 : (⟨S2x262144, .i32⟩ : BufTy).Contents (Elt Ideal)) (e : Fin 262144) (k : Fin 128) :
    val_main_v18 (F := Ideal) x0 x7 (ix2 e (⟨128 + k.val, by omega⟩ : Fin 256))
      = x0 (ix2 (rowOf 8192 (by decide) (val_main_v16 (F := Ideal) x7) e) k) := by
  unfold val_main_v18
  refine (concatenate_pair_apply_right 1 (val_main_v10 (F := Ideal) x0 x7) (val_main_v17 (F := Ideal) x0 x7)
    concatenates_S262144x128_S262144x128_S262144x256_d1 (ix2 e (⟨128 + k.val, by omega⟩ : Fin 256)) rfl rfl (ix2 e k)
    (fun b => match b with
      | ⟨0, _⟩ => fun _ => rfl
      | ⟨1, _⟩ => fun h => absurd rfl h)
    (by show k.val + 128 = 128 + k.val; omega)).trans ?_
  unfold val_main_v17
  exact gather_row_apply (N := 8192) (C := 128) (R := 262144) (by decide)
    gather_S8192x128_S262144x1_S262144x128_1_0_n_n_0_1_1128_wf x0 (val_main_v16 (F := Ideal) x7) e k

/-! ## The first layer -/

/-- The first layer's product at `(e, j)`: the sum over the first end's embedding against the upper half of the
    weights plus the sum over the second end's embedding against the lower half. -/
theorem ref_v19 (x0 : (⟨S8192x128, .f32⟩ : BufTy).Contents (Elt Ideal)) (x3 : (⟨S256x64, .f32⟩ : BufTy).Contents (Elt Ideal)) (x7 : (⟨S2x262144, .i32⟩ : BufTy).Contents (Elt Ideal)) (e : Fin 262144) (j : Fin 64) :
    val_main_v19 (F := Ideal) x0 x3 x7 (ix2 e j)
      = (∑ k : Fin 128, x0 (ix2 (rowOf 8192 (by decide) (val_main_v9 (F := Ideal) x7) e) k) * x3 (ix2 (⟨k.val, by omega⟩ : Fin 256) j))
        + ∑ k : Fin 128, x0 (ix2 (rowOf 8192 (by decide) (val_main_v16 (F := Ideal) x7) e) k) * x3 (ix2 (⟨128 + k.val, by omega⟩ : Fin 256) j) := by
  have hl : ∀ k : Fin 256, lidx_main_v19 (ix2 e j) k = ix2 e k := fun k => funext fun a => match a with
    | ⟨0, _⟩ => rfl
    | ⟨1, _⟩ => rfl
  have hr : ∀ k : Fin 256, ridx_main_v19 (ix2 e j) k = ix2 k j := fun k => funext fun a => match a with
    | ⟨0, _⟩ => rfl
    | ⟨1, _⟩ => rfl
  rw [val_main_v19_apply, sum_split_256]
  simp only [hl, hr]
  refine congrArg₂ (· + ·) (Finset.sum_congr rfl fun k _ => ?_) (Finset.sum_congr rfl fun k _ => ?_)
  · rw [ref_v18_left]
  · rw [ref_v18_right]

/-- With the bias. -/
theorem ref_v22 (x0 : (⟨S8192x128, .f32⟩ : BufTy).Contents (Elt Ideal)) (x3 : (⟨S256x64, .f32⟩ : BufTy).Contents (Elt Ideal)) (x4 : (⟨S64, .f32⟩ : BufTy).Contents (Elt Ideal)) (x7 : (⟨S2x262144, .i32⟩ : BufTy).Contents (Elt Ideal)) (e : Fin 262144) (j : Fin 64) :
    val_main_v22 (F := Ideal) x0 x3 x4 x7 (ix2 e j) = val_main_v19 (F := Ideal) x0 x3 x7 (ix2 e j) + x4 (ix1 j) := by
  have h : idx_main_v20 (idx_main_v21 (ix2 e j)) = ix1 j := funext fun a => match a with
    | ⟨0, _⟩ => rfl
  rw [val_main_v22_apply, val_main_v21_apply, val_main_v20_apply, h]
  rfl

/-- Rectified. -/
theorem ref_v23 (x0 : (⟨S8192x128, .f32⟩ : BufTy).Contents (Elt Ideal)) (x3 : (⟨S256x64, .f32⟩ : BufTy).Contents (Elt Ideal)) (x4 : (⟨S64, .f32⟩ : BufTy).Contents (Elt Ideal)) (x7 : (⟨S2x262144, .i32⟩ : BufTy).Contents (Elt Ideal)) (e : Fin 262144) (j : Fin 64) :
    val_main_v23 (F := Ideal) x0 x3 x4 x7 (ix2 e j) = max (val_main_v22 (F := Ideal) x0 x3 x4 x7 (ix2 e j)) fzero := by
  rw [val_main_v23_apply, val_main_call0_v0_apply, val_main_call0_cst_apply]
  rfl

/-! ## The second layer -/

/-- The logit of edge `e`. -/
theorem ref_v28 (x0 : (⟨S8192x128, .f32⟩ : BufTy).Contents (Elt Ideal)) (x3 : (⟨S256x64, .f32⟩ : BufTy).Contents (Elt Ideal)) (x4 : (⟨S64, .f32⟩ : BufTy).Contents (Elt Ideal)) (x5 : (⟨S64x1, .f32⟩ : BufTy).Contents (Elt Ideal)) (x6 : (⟨S1, .f32⟩ : BufTy).Contents (Elt Ideal)) (x7 : (⟨S2x262144, .i32⟩ : BufTy).Contents (Elt Ideal)) (e : Fin 262144) :
    val_main_v28 (F := Ideal) x0 x3 x4 x5 x6 x7 (ix1 e)
      = (∑ j : Fin 64, val_main_v23 (F := Ideal) x0 x3 x4 x7 (ix2 e j) * x5 (ix2 j (0 : Fin 1))) + x6 (ix1 (0 : Fin 1)) := by
  have h1 : ∀ k : Fin 64, lidx_main_v24 (idx_main_v28 (ix1 e)) k = ix2 e k := fun k => funext fun a => match a with
    | ⟨0, _⟩ => Fin.ext (Nat.div_one _)
    | ⟨1, _⟩ => rfl
  have h2 : ∀ k : Fin 64, ridx_main_v24 (idx_main_v28 (ix1 e)) k = ix2 k (0 : Fin 1) := fun k => funext fun a => match a with
    | ⟨0, _⟩ => rfl
    | ⟨1, _⟩ => rfl
  have h3 : idx_main_v25 (idx_main_v26 (idx_main_v28 (ix1 e))) = ix1 (0 : Fin 1) := funext fun a => match a with
    | ⟨0, _⟩ => rfl
  rw [val_main_v28_apply, val_main_v27_apply, val_main_v24_apply, val_main_v26_apply, val_main_v25_apply, h3]
  simp only [h1, h2]
  rfl

/-! ## The gate -/

/-- The reference's gate of edge `e` is the shared gate formula of its noise sample and its logit. -/
theorem ref_v39 (x0 : (⟨S8192x128, .f32⟩ : BufTy).Contents (Elt Ideal)) (x2 : (⟨S262144, .f32⟩ : BufTy).Contents (Elt Ideal)) (x3 : (⟨S256x64, .f32⟩ : BufTy).Contents (Elt Ideal)) (x4 : (⟨S64, .f32⟩ : BufTy).Contents (Elt Ideal)) (x5 : (⟨S64x1, .f32⟩ : BufTy).Contents (Elt Ideal)) (x6 : (⟨S1, .f32⟩ : BufTy).Contents (Elt Ideal)) (x7 : (⟨S2x262144, .i32⟩ : BufTy).Contents (Elt Ideal)) (e : Fin 262144) :
    val_main_v39 (F := Ideal) x0 x2 x3 x4 x5 x6 x7 (ix1 e)
      = gateOf (x2 (ix1 e)) (val_main_v28 (F := Ideal) x0 x3 x4 x5 x6 x7 (ix1 e)) := by
  rw [val_main_v39_apply, val_main_v38_apply, val_main_cst_3_apply, val_main_v37_apply, val_main_v36_apply,
    val_main_cst_apply, val_main_v35_apply, val_main_v34_apply, val_main_v33_apply, val_main_v32_apply,
    val_main_v29_apply, val_main_v31_apply, val_main_v30_apply]
  show Ideal.div (Ideal.ofBits .f32 0x3F800000#32) (Ideal.ofBits .f32 0x3F800000#32
      + Ideal.exp (-((Ideal.log (x2 (ix1 e)) - Ideal.log1p (-(x2 (ix1 e)))) + val_main_v28 (F := Ideal) x0 x3 x4 x5 x6 x7 (ix1 e))))
    = Ideal.div 1 (1 + Ideal.exp (-((Ideal.log (x2 (ix1 e)) - Ideal.log1p (fzero - x2 (ix1 e))) + val_main_v28 (F := Ideal) x0 x3 x4 x5 x6 x7 (ix1 e))))
  rw [one_f32, zero_f32_sub]

end Cert.Hand.Gate

end
-- ==== Proof.LibPlainDot.lean ====
/-
  A plain matrix product `[a, k] × [k, b] → [a, b]` read at an entry.

  The kernel's matrix unit (into the zero accumulator) and the host's `dot_general` are both, on the extended reals, the
  sum over the dimension record's contraction index of the operands' products.  When the record contracts the left
  operand's second axis with the right operand's first — stated here as four facts about the record's operand
  indices, which each use proves by evaluating its record — that sum re-indexes to `Σ j, lhs (p, j) · rhs (j, c)`.
-/
import Idealize.ShloMosaic.Lib.ValueIdx
import Idealize.ShloMosaic.PureOps.Ideal.Laws

noncomputable section

namespace Idealize.ShloMosaic.PlainDot

open Idealize.ShloMosaic Idealize.ShloMosaic.ValueIdx

variable {a k b : ℕ} {φ₁ φ₂ : FTy}

/-- The contraction sum of a plain product at entry `(p, c)`, re-indexed by the contracted coordinate. -/
theorem sum_eq (D : DotDims ⟨2, ![a, k]⟩ ⟨2, ![k, b]⟩ ⟨2, ![a, b]⟩)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    ∑ q : D.contr.Idx, lhs (D.lhsIdx (ix2 p c) q) * rhs (D.rhsIdx (ix2 p c) q)
      = ∑ j : Fin k, lhs (ix2 p j) * rhs (ix2 j c) := by
  rw [← Equiv.sum_comp (contrEquiv1 D k hr hs).symm]
  refine Finset.sum_congr rfl fun j _ => ?_
  have hk := contrEquiv1_symm_val D k hr hs j
  have el : D.lhsIdx (ix2 p c) ((contrEquiv1 D k hr hs).symm j) = ix2 p j := funext fun ax => Fin.ext (by
    match ax with
    | ⟨0, _⟩ => exact hl0 _ _
    | ⟨1, _⟩ => exact (hl1 _ _).trans hk)
  have er : D.rhsIdx (ix2 p c) ((contrEquiv1 D k hr hs).symm j) = ix2 j c := funext fun ax => Fin.ext (by
    match ax with
    | ⟨0, _⟩ => exact (hr0 _ _).trans hk
    | ⟨1, _⟩ => exact hr1 _ _)
  rw [el, er]

/-- The matrix unit into the zero accumulator, at entry `(p, c)`. -/
theorem matmul_zero_apply (D : DotDims ⟨2, ![a, k]⟩ ⟨2, ![k, b]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    matmul D prec lhs rhs (constant (F := Ideal) ⟨2, ![a, b]⟩ .f32 0x00000000#32) (ix2 p c)
      = ∑ j : Fin k, lhs (ix2 p j) * rhs (ix2 j c) :=
  (Ideal.matmul_constant_zero_apply D prec lhs rhs (ix2 p c)).trans (sum_eq D hr hs hl0 hl1 hr0 hr1 lhs rhs p c)

/-- The host's `dot_general`, at entry `(p, c)`. -/
theorem dotGeneral_apply (D : DotDims ⟨2, ![a, k]⟩ ⟨2, ![k, b]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    Host.dotGeneral D prec lhs rhs (ix2 p c) = ∑ j : Fin k, lhs (ix2 p j) * rhs (ix2 j c) :=
  (Ideal.dotGeneral_apply D prec .single lhs rhs (ix2 p c)).trans (sum_eq D hr hs hl0 hl1 hr0 hr1 lhs rhs p c)

end Idealize.ShloMosaic.PlainDot

end
-- ==== Proof.KHostRead.lean ====
/-
  The kernel's host-side values read at an entry: a projected table is a sum over the 128 embedding coordinates
  against one half of the first layer's weights, and its lookup reads the row the index column names.
-/
import proofs.«160461_j85040352461208_2_alg».proof.Proof.KHost
import proofs.«160461_j85040352461208_2_alg».proof.Proof.GateLemmas
import proofs.«160461_j85040352461208_2_alg».proof.Proof.LibPlainDot

noncomputable section

namespace Cert.Hand.Gate

open Cert.KernelIdeal Cert.KernelIdeal.Gen Idealize.ShloMosaic Idealize.ShloMosaic.TcCoe Idealize.SL.Sem Idealize.ShloMosaic.StableHlo
open Idealize.ShloMosaic.ValueIdx Idealize.ShloMosaic.RowTake

/-! ## The product's dimension record contracts the left operand's lanes with the right operand's rows -/

theorem kdot_l0 (i : S8192x64.Idx) (q : dot_S8192x128_S128x64_S8192x64_1_0_0_1_n_n.contr.Idx) :
    (dot_S8192x128_S128x64_S8192x64_1_0_0_1_n_n.lhsIdx i q 0).val = (i 0).val := by
  unfold DotDims.lhsIdx
  rw [dif_neg (show ¬(0 : Fin S8192x128.rank) ∈ dot_S8192x128_S128x64_S8192x64_1_0_0_1_n_n.lhsBatch by decide), dif_pos (show (0 : Fin S8192x128.rank) ∈ dot_S8192x128_S128x64_S8192x64_1_0_0_1_n_n.lhsNonContracting by decide)]
  rfl
theorem kdot_l1 (i : S8192x64.Idx) (q : dot_S8192x128_S128x64_S8192x64_1_0_0_1_n_n.contr.Idx) :
    (dot_S8192x128_S128x64_S8192x64_1_0_0_1_n_n.lhsIdx i q 1).val = (q ⟨0, by decide⟩).val :=
  dot_S8192x128_S128x64_S8192x64_1_0_0_1_n_n.lhsIdx_val_of_single rfl i q
theorem kdot_r0 (i : S8192x64.Idx) (q : dot_S8192x128_S128x64_S8192x64_1_0_0_1_n_n.contr.Idx) :
    (dot_S8192x128_S128x64_S8192x64_1_0_0_1_n_n.rhsIdx i q 0).val = (q ⟨0, by decide⟩).val :=
  dot_S8192x128_S128x64_S8192x64_1_0_0_1_n_n.rhsIdx_val_of_single rfl i q
theorem kdot_r1 (i : S8192x64.Idx) (q : dot_S8192x128_S128x64_S8192x64_1_0_0_1_n_n.contr.Idx) :
    (dot_S8192x128_S128x64_S8192x64_1_0_0_1_n_n.rhsIdx i q 1).val = (i 1).val := by
  unfold DotDims.rhsIdx
  rw [dif_neg (show ¬(1 : Fin S128x64.rank) ∈ dot_S8192x128_S128x64_S8192x64_1_0_0_1_n_n.rhsBatch by decide), dif_pos (show (1 : Fin S128x64.rank) ∈ dot_S8192x128_S128x64_S8192x64_1_0_0_1_n_n.rhsNonContracting by decide)]
  rfl

/-! ## The two projected tables at an entry -/

/-- `(embed · W1[0:128, :]) (p, c) = Σ_k embed (p, k) · W1 (k, c)`. -/
theorem kP1_apply (x0 : (⟨S8192x128, .f32⟩ : BufTy).Contents (Elt Ideal)) (x3 : (⟨S256x64, .f32⟩ : BufTy).Contents (Elt Ideal))
    (p : Fin 8192) (c : Fin 64) :
    kP1 (F := Ideal) x0 x3 (ix2 p c) = ∑ k : Fin 128, x0 (ix2 p k) * x3 (ix2 (⟨k.val, by omega⟩ : Fin 256) c) := by
  unfold kP1
  refine (PlainDot.dotGeneral_apply (φ₁ := .f32) (φ₂ := .f32) dot_S8192x128_S128x64_S8192x64_1_0_0_1_n_n none rfl rfl
    kdot_l0 kdot_l1 kdot_r0 kdot_r1 x0 _ p c).trans ?_
  refine Finset.sum_congr rfl fun k _ => congrArg (x0 (ix2 p k) * ·) ?_
  exact extractStridedSlice_apply ![0, 0] x3 slices_S256x64_S128x64_0_0 (ix2 k c) (ix2 (⟨k.val, by omega⟩ : Fin 256) c) (fun a => match a with
    | ⟨0, _⟩ => by show k.val = 0 + k.val; omega
    | ⟨1, _⟩ => by show c.val = 0 + c.val; omega)

/-- `(embed · W1[128:256, :]) (p, c) = Σ_k embed (p, k) · W1 (128 + k, c)`. -/
theorem kP2_apply (x0 : (⟨S8192x128, .f32⟩ : BufTy).Contents (Elt Ideal)) (x3 : (⟨S256x64, .f32⟩ : BufTy).Contents (Elt Ideal))
    (p : Fin 8192) (c : Fin 64) :
    kP2 (F := Ideal) x0 x3 (ix2 p c) = ∑ k : Fin 128, x0 (ix2 p k) * x3 (ix2 (⟨128 + k.val, by omega⟩ : Fin 256) c) := by
  unfold kP2
  refine (PlainDot.dotGeneral_apply (φ₁ := .f32) (φ₂ := .f32) dot_S8192x128_S128x64_S8192x64_1_0_0_1_n_n none rfl rfl
    kdot_l0 kdot_l1 kdot_r0 kdot_r1 x0 _ p c).trans ?_
  refine Finset.sum_congr rfl fun k _ => congrArg (x0 (ix2 p k) * ·) ?_
  exact extractStridedSlice_apply ![128, 0] x3 slices_S256x64_S128x64_128_0 (ix2 k c) (ix2 (⟨128 + k.val, by omega⟩ : Fin 256) c) (fun a => match a with
    | ⟨0, _⟩ => by show 128 + k.val = 128 + k.val; omega
    | ⟨1, _⟩ => by show c.val = 0 + c.val; omega)

/-! ## Their lookups at an entry -/

/-- The first projection at edge `e`'s first end. -/
theorem kG1_apply (x0 : (⟨S8192x128, .f32⟩ : BufTy).Contents (Elt Ideal)) (x3 : (⟨S256x64, .f32⟩ : BufTy).Contents (Elt Ideal))
    (x7 : (⟨S2x262144, .i32⟩ : BufTy).Contents (Elt Ideal)) (e : Fin 262144) (j : Fin 64) :
    kG1 (F := Ideal) x0 x3 x7 (ix2 e j)
      = ∑ k : Fin 128, x0 (ix2 (rowOf 8192 (by decide) (kRow (F := Ideal) x7) e) k) * x3 (ix2 (⟨k.val, by omega⟩ : Fin 256) j) := by
  unfold kG1
  refine (gather_row_apply (N := 8192) (C := 64) (R := 262144) (by decide)
    gather_S8192x64_S262144x1_S262144x64_1_0_n_n_0_1_164_wf (kP1 (F := Ideal) x0 x3) (kRow (F := Ideal) x7) e j).trans ?_
  exact kP1_apply x0 x3 _ j

/-- The second projection at edge `e`'s second end. -/
theorem kG2_apply (x0 : (⟨S8192x128, .f32⟩ : BufTy).Contents (Elt Ideal)) (x3 : (⟨S256x64, .f32⟩ : BufTy).Contents (Elt Ideal))
    (x7 : (⟨S2x262144, .i32⟩ : BufTy).Contents (Elt Ideal)) (e : Fin 262144) (j : Fin 64) :
    kG2 (F := Ideal) x0 x3 x7 (ix2 e j)
      = ∑ k : Fin 128, x0 (ix2 (rowOf 8192 (by decide) (kCol (F := Ideal) x7) e) k) * x3 (ix2 (⟨128 + k.val, by omega⟩ : Fin 256) j) := by
  unfold kG2
  refine (gather_row_apply (N := 8192) (C := 64) (R := 262144) (by decide)
    gather_S8192x64_S262144x1_S262144x64_1_0_n_n_0_1_164_wf (kP2 (F := Ideal) x0 x3) (kCol (F := Ideal) x7) e j).trans ?_
  exact kP2_apply x0 x3 _ j

/-- The flat second-layer weights at `j`. -/
theorem kW2_apply (x5 : (⟨S64x1, .f32⟩ : BufTy).Contents (Elt Ideal)) (j : Fin 64) :
    kW2 (F := Ideal) x5 (ix1 j) = x5 (ix2 j (0 : Fin 1)) := by
  unfold kW2
  exact shapeCast_apply x5 shapeCasts_S64x1_S64 (ix1 j) (ix2 j (0 : Fin 1))
    (by rewrite [Shape.rowMajor_val_two, Shape.rowMajor_val_one]; show j.val * 1 + 0 = j.val; omega)

end Cert.Hand.Gate

end
-- ==== Proof.GateBridge.lean ====
/-
  The gate bridge: the reference's gate of an edge is the shared gate formula of the edge's noise sample and of
  the logit computed from the KERNEL's host-side values.  The two first layers agree because a sum over the 256
  concatenated coordinates is the sum over the first end's 128 plus the sum over the second end's 128, and each half
  is one entry of a projected table looked up at the same row.
-/
import proofs.«160461_j85040352461208_2_alg».proof.Proof.GateRefRead
import proofs.«160461_j85040352461208_2_alg».proof.Proof.KHostRead

noncomputable section

namespace Cert.Hand.Gate

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx Idealize.ShloMosaic.RowTake

/-- The kernel's first index column is the reference's, operation by operation. -/
theorem kRow_eq_ref (x7 : (⟨S2x262144, .i32⟩ : BufTy).Contents (Elt Ideal)) : kRow (F := Ideal) x7 = val_main_v9 (F := Ideal) x7 := rfl

/-- The kernel's second index column is the reference's. -/
theorem kCol_eq_ref (x7 : (⟨S2x262144, .i32⟩ : BufTy).Contents (Elt Ideal)) : kCol (F := Ideal) x7 = val_main_v16 (F := Ideal) x7 := rfl

/-- The reference's first layer before the bias is the sum of the kernel's two looked-up projections. -/
theorem ref_v19_eq_k (x0 : (⟨S8192x128, .f32⟩ : BufTy).Contents (Elt Ideal)) (x3 : (⟨S256x64, .f32⟩ : BufTy).Contents (Elt Ideal)) (x7 : (⟨S2x262144, .i32⟩ : BufTy).Contents (Elt Ideal)) (e : Fin 262144) (j : Fin 64) :
    val_main_v19 (F := Ideal) x0 x3 x7 (ix2 e j)
      = kG1 (F := Ideal) x0 x3 x7 (ix2 e j) + kG2 (F := Ideal) x0 x3 x7 (ix2 e j) := by
  rw [ref_v19, kG1_apply, kG2_apply, kRow_eq_ref, kCol_eq_ref]

/-- THE BRIDGE: the reference's gate of edge `e`, from the kernel's host-side values. -/
theorem gate_ref (x0 : (⟨S8192x128, .f32⟩ : BufTy).Contents (Elt Ideal)) (x2 : (⟨S262144, .f32⟩ : BufTy).Contents (Elt Ideal)) (x3 : (⟨S256x64, .f32⟩ : BufTy).Contents (Elt Ideal)) (x4 : (⟨S64, .f32⟩ : BufTy).Contents (Elt Ideal)) (x5 : (⟨S64x1, .f32⟩ : BufTy).Contents (Elt Ideal)) (x6 : (⟨S1, .f32⟩ : BufTy).Contents (Elt Ideal)) (x7 : (⟨S2x262144, .i32⟩ : BufTy).Contents (Elt Ideal)) (e : Fin 262144) :
    val_main_v39 (F := Ideal) x0 x2 x3 x4 x5 x6 x7 (ix1 e)
      = gateOf (x2 (ix1 e))
          (logitOf (fun j => (kG1 (F := Ideal) x0 x3 x7 (ix2 e j) + kG2 (F := Ideal) x0 x3 x7 (ix2 e j)) + x4 (ix1 j))
            (fun j => kW2 (F := Ideal) x5 (ix1 j)) (x6 (ix1 (0 : Fin 1)))) := by
  rw [ref_v39, ref_v28]
  unfold logitOf
  refine congrArg (gateOf (x2 (ix1 e))) (congrArg (· + x6 (ix1 (0 : Fin 1))) (Finset.sum_congr rfl fun j _ => ?_))
  rw [ref_v23, ref_v22, ref_v19_eq_k, ← kW2_apply x5 j]

end Cert.Hand.Gate

end
-- ==== Proof.KIValue.lean ====
/-
  The value of the kernel program's result, and its agreement with the reference's.

  After the run the result array is, entry by entry, `adj ⊙ ½ (M + Mᵀ)` for the mask `M` that the second host stretch
  scatters out of the gate array; the gate array is, edge by edge, the gate formula of the edge's noise sample and of
  the logit computed from the two looked-up first-layer halves.  The reference's result is the same expression of ITS
  mask, which is the same scatter (same zero matrix, same index pairs) of ITS gate array; and the two gate arrays
  agree edge by edge (the first layer of the concatenated rows splits into the two halves).  So the two results are
  one function of the arguments.
-/
import proofs.«160461_j85040352461208_2_alg».proof.Proof.KIRun
import proofs.«160461_j85040352461208_2_alg».proof.Proof.KIFlushed
import proofs.«160461_j85040352461208_2_alg».proof.Proof.KIHost
import proofs.«160461_j85040352461208_2_alg».proof.Proof.GateArr
import proofs.«160461_j85040352461208_2_alg».proof.Proof.SymArr
import proofs.«160461_j85040352461208_2_alg».proof.Proof.SymRef
import proofs.«160461_j85040352461208_2_alg».proof.Proof.GateBridge

set_option maxRecDepth 16384

noncomputable section

namespace Cert.KernelIdeal.Hand

open Cert.KernelIdeal Cert.KernelIdeal.Gen Cert.Hand Cert.Hand.Gate
open Idealize.ShloMosaic Idealize.ShloMosaic.TcCoe Idealize.SL.Sem Idealize.ShloMosaic.ValueIdx

/-- The gate array as a function of the arguments: edge by edge, the gate of the edge's noise sample and of the logit
    computed from the two looked-up first-layer halves, the first bias, the flattened second weights, the second bias. -/
def gateArr (x0 : (⟨S8192x128, .f32⟩ : BufTy).Contents (Elt Ideal)) (x2 : (⟨S262144, .f32⟩ : BufTy).Contents (Elt Ideal))
    (x3 : (⟨S256x64, .f32⟩ : BufTy).Contents (Elt Ideal)) (x4 : (⟨S64, .f32⟩ : BufTy).Contents (Elt Ideal))
    (x5 : (⟨S64x1, .f32⟩ : BufTy).Contents (Elt Ideal)) (x6 : (⟨S1, .f32⟩ : BufTy).Contents (Elt Ideal))
    (x7 : (⟨S2x262144, .i32⟩ : BufTy).Contents (Elt Ideal)) : (⟨S262144, .f32⟩ : BufTy).Contents (Elt Ideal) :=
  fun i => gateOf (x2 i) (logitOf (fun j => (kG1 (F := Ideal) x0 x3 x7 (ix2 (i 0) j) + kG2 (F := Ideal) x0 x3 x7 (ix2 (i 0) j)) + x4 (ix1 j))
    (fun j => kW2 (F := Ideal) x5 (ix1 j)) (x6 (ix1 0)))

/-- The result as a function of the adjacency and the mask. -/
def symArr (a M : (⟨S8192x8192, .f32⟩ : BufTy).Contents (Elt Ideal)) : (⟨S8192x8192, .f32⟩ : BufTy).Contents (Elt Ideal) :=
  fun i => symOf (a i) (M i) (M (ix2 (i 1) (i 0)))

variable (m : (ℓ : Loc nD τ sig) → Buf (Elt Ideal) ℓ)

/-! ## What the gate call finds and leaves -/

theorem V1_arg (c : Dev nD) (r : Ref sig .tc) (h : r ∉ hostOps0_W) : V1 m c r = m ((c : Thread nD τ).loc r) :=
  StableHlo.after_of_writes_sub hostOps0 _ hostOps0_writes h

/-- The gate array after the first call. -/
theorem gate_final (c : Dev nD) : (dat0 (V1 m) c).arrAt 6 cfg0.N
    = gateArr (m ((c : Thread nD τ).loc main_arg0)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)) := by
  have h := Blocks.gate_array (dat0 (V1 m) c) (V1 m c main_v14) (V1 m c main_v21) (V1 m c main_arg2) (V1 m c main_arg4)
    (V1 m c main_v22) (V1 m c main_arg6) (fun t => flushed0_6 (V1 m) c t)
  rw [h, show V1 m c main_v14 = _ from after0_v14 (W0 m c), show V1 m c main_v21 = _ from after0_v21 (W0 m c),
    show V1 m c main_v22 = _ from after0_v22 (W0 m c), V1_arg m c main_arg2 (by decide), V1_arg m c main_arg4 (by decide),
    V1_arg m c main_arg6 (by decide)]
  rfl

/-! ## What the symmetrising call finds and leaves -/

theorem W2_v1 (c : Dev nD) : W2 m c (Proc.devRef .tc main_v1) = kSrc (m ((c : Thread nD τ).loc main_arg7)) :=
  (W2_of_ne m c main_v1 (by decide)).trans (after0_v1 (W0 m c))
theorem W2_v3 (c : Dev nD) : W2 m c (Proc.devRef .tc main_v3) = kDst (m ((c : Thread nD τ).loc main_arg7)) :=
  (W2_of_ne m c main_v3 (by decide)).trans (after0_v3 (W0 m c))
theorem W2_v23 (c : Dev nD) : W2 m c (Proc.devRef .tc main_v23)
    = gateArr (m ((c : Thread nD τ).loc main_arg0)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)) :=
  (W2_arr m c 6).trans (gate_final m c)

/-- The mask the second call reads. -/
theorem V3_mask (c : Dev nD) : V3 m c main_v38
    = maskOf (kSrc (m ((c : Thread nD τ).loc main_arg7))) (kDst (m ((c : Thread nD τ).loc main_arg7)))
        (gateArr (m ((c : Thread nD τ).loc main_arg0)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7))) := by
  refine (after1_v38 (W2 m c)).trans ?_
  rw [W2_v1, W2_v3, W2_v23]

/-- The adjacency the second call reads is the argument. -/
theorem V3_adj (c : Dev nD) : V3 m c main_arg1 = m ((c : Thread nD τ).loc main_arg1) :=
  calc W3 m c (Proc.devRef .tc main_arg1)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

/-- THE RESULT ARRAY after the run, as a function of the arguments. -/
theorem result_final (c : Dev nD) : (dat1 (V3 m) c).arrAt 3 cfg1.N
    = symArr (m ((c : Thread nD τ).loc main_arg1))
        (maskOf (kSrc (m ((c : Thread nD τ).loc main_arg7))) (kDst (m ((c : Thread nD τ).loc main_arg7)))
          (gateArr (m ((c : Thread nD τ).loc main_arg0)) (m ((c : Thread nD τ).loc main_arg2)) (m ((c : Thread nD τ).loc main_arg3))
            (m ((c : Thread nD τ).loc main_arg4)) (m ((c : Thread nD τ).loc main_arg5)) (m ((c : Thread nD τ).loc main_arg6)) (m ((c : Thread nD τ).loc main_arg7)))) := by
  have h := Blocks.sym_array (dat1 (V3 m) c) (V3 m c main_arg1) (V3 m c main_v38) (fun t => flushed1_3 (V3 m) c t)
  rw [h, V3_adj, V3_mask]
  rfl

end Cert.KernelIdeal.Hand

/-! ## The reference's result is the same function -/

namespace Cert.ReferenceIdeal.RefValue

open Cert.ReferenceIdeal Cert.ReferenceIdeal.Gen Cert.ReferenceIdeal.Read Cert.Hand Cert.Hand.Gate
open Idealize.ShloMosaic Idealize.ShloMosaic.TcCoe Idealize.SL.Sem Idealize.ShloMosaic.ValueIdx
open Cert.KernelIdeal.Hand (gateArr symArr maskOf)

variable (x0 : (⟨S8192x128, .f32⟩ : BufTy).Contents (Elt Ideal)) (x1 : (⟨S8192x8192, .f32⟩ : BufTy).Contents (Elt Ideal))
  (x2 : (⟨S262144, .f32⟩ : BufTy).Contents (Elt Ideal)) (x3 : (⟨S256x64, .f32⟩ : BufTy).Contents (Elt Ideal))
  (x4 : (⟨S64, .f32⟩ : BufTy).Contents (Elt Ideal)) (x5 : (⟨S64x1, .f32⟩ : BufTy).Contents (Elt Ideal))
  (x6 : (⟨S1, .f32⟩ : BufTy).Contents (Elt Ideal)) (x7 : (⟨S2x262144, .i32⟩ : BufTy).Contents (Elt Ideal))

/-- The two gate arrays agree, edge by edge. -/
theorem gate_eq : gateArr x0 x2 x3 x4 x5 x6 x7 = val_main_v39 (F := Ideal) x0 x2 x3 x4 x5 x6 x7 := by
  funext i
  rw [eq_ix1 i]
  exact (gate_ref x0 x2 x3 x4 x5 x6 x7 (i 0)).symm

/-- The two masks agree: the same scatter of the same gate array. -/
theorem mask_eq : maskOf (kSrc x7) (kDst x7) (gateArr x0 x2 x3 x4 x5 x6 x7) = val_main_v54 (F := Ideal) x0 x2 x3 x4 x5 x6 x7 := by
  rw [gate_eq]
  rfl

/-- The reference's result is `adj ⊙ ½ (M + Mᵀ)` of its mask. -/
theorem ref_result : val_main_v59 (F := Ideal) x0 x1 x2 x3 x4 x5 x6 x7 = symArr x1 (val_main_v54 (F := Ideal) x0 x2 x3 x4 x5 x6 x7) := by
  funext i
  obtain ⟨p, q, rfl⟩ : ∃ (p q : Fin 8192), i = ix2 p q := ⟨i 0, i 1, eq_ix2 i⟩
  exact Cert.Hand.Pay.ref_sym_apply x1 (val_main_v54 (F := Ideal) x0 x2 x3 x4 x5 x6 x7) p q

/-- The reference's result is the kernel program's function of the arguments. -/
theorem ref_final : val_main_v59 (F := Ideal) x0 x1 x2 x3 x4 x5 x6 x7
    = symArr x1 (maskOf (kSrc x7) (kDst x7) (gateArr x0 x2 x3 x4 x5 x6 x7)) := by
  rw [ref_result, mask_eq]

end Cert.ReferenceIdeal.RefValue

end
-- ==== Proof.lean ====
/-
  The certificate's claim: the two frames of the kernel program (as printed, and idealised), the reference's frame, the
  idealisation's ledger (empty), and the equality of the two idealised programs' results on the extended reals.

  The kernel program is two pallas_calls among host operations.  Its frame and its result come from one run theorem:
  host stretches fold the buffers' valuation, each call is entered by splitting its windows' arrays out of the
  valuation and left by putting them back, and each grid point's body is one store of a payload of the staged blocks.
  The result array is then read entry by entry as `adj ⊙ ½ (M + Mᵀ)` of the scattered mask `M` of the per-edge gates;
  the reference computes the same expression, its first layer on concatenated rows splitting into the kernel
  program's two projected halves.
-/
import proofs.«160461_j85040352461208_2_alg».proof.Defs
import proofs.«160461_j85040352461208_2_alg».proof.Proof.Gen.Kernel
import proofs.«160461_j85040352461208_2_alg».proof.Proof.Gen.KernelIdeal
import proofs.«160461_j85040352461208_2_alg».proof.Proof.Gen.ReferenceIdeal
import proofs.«160461_j85040352461208_2_alg».proof.Proof.Gen.Pre_finite_inputs
import proofs.«160461_j85040352461208_2_alg».proof.Proof.Gen.ReferenceIdeal.Run
import proofs.«160461_j85040352461208_2_alg».proof.Proof.Gen.ReferenceIdeal.Read
import proofs.«160461_j85040352461208_2_alg».proof.Proof.KRun
import proofs.«160461_j85040352461208_2_alg».proof.Proof.KIRun
import proofs.«160461_j85040352461208_2_alg».proof.Proof.KIValue
import Idealize.ShloMosaic.Adequacy
import Idealize.ShloMosaic.Init

noncomputable section

namespace Cert.Proof

open Idealize.ShloMosaic Idealize.ShloMosaic.TcCoe Idealize.SL.Sem

/-- The printed kernel program runs to the end, faults nowhere and leaves its arguments as launched. -/
theorem frame_k : @Cert.frame_Kernel Cert.Kernel.Gen.facts Cert.Pre_finite_inputs.Gen.facts := fun m ρ _ =>
  (θ_run (Cert.Kernel.defs (F := Bits)) _ _).mono (fun _ h c => (h c).2) (Cert.Kernel.Hand.run (F := Bits) m ρ)

/-- So does the idealised kernel program. -/
theorem frame_ki : @Cert.frame_KernelIdeal Cert.KernelIdeal.Gen.facts Cert.Pre_finite_inputs.Gen.facts := fun m ρ _ =>
  (θ_run (Cert.KernelIdeal.defs (F := Ideal)) _ _).mono (fun _ h c => (h c).2) (Cert.KernelIdeal.Hand.run (F := Ideal) m ρ)

/-- The reference is host operations only: its run, the result dropped. -/
theorem frame_ri : @Cert.frame_ReferenceIdeal Cert.ReferenceIdeal.Gen.facts Cert.Pre_finite_inputs.Gen.facts := fun m ρ _ =>
  (θ_run (Cert.ReferenceIdeal.defs (F := Ideal)) _ _).mono (fun _ h c => (h c).2) (Cert.ReferenceIdeal.Value.run (F := Ideal) m ρ)

/-- The ideal pass rewrote nothing. -/
theorem preserves : Cert.preserves_Kernel_KernelIdeal := trivial

/-- From memories agreeing on the arguments the two idealised programs end with the same result: both are
    `adj ⊙ ½ (M + Mᵀ)` of the scattered mask of the per-edge gates, one function of the arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => (Cert.KernelIdeal.Hand.dat1 (Cert.KernelIdeal.Hand.V3 m) c).arrAt 3 Cert.KernelIdeal.cfg1.N,
    Cert.KernelIdeal.Hand.run (F := Ideal) m ρ, ?_⟩
  refine (θ_run (Cert.ReferenceIdeal.defs (F := Ideal)) _ _).mono (fun _ h c => ⟨(h c).1.trans ?_, (h c).2⟩)
    (Cert.ReferenceIdeal.Value.run (F := Ideal) m' ρ')
  show Cert.ReferenceIdeal.Value.res_main_v59 m' c
    = (Cert.KernelIdeal.Hand.dat1 (Cert.KernelIdeal.Hand.V3 m) c).arrAt 3 Cert.KernelIdeal.cfg1.N
  rw [Cert.ReferenceIdeal.Read.val_main_v59_eq, Cert.ReferenceIdeal.RefValue.ref_final, Cert.KernelIdeal.Hand.result_final,
    (hagree c).1, (hagree c).2.1, (hagree c).2.2.1, (hagree c).2.2.2.1, (hagree c).2.2.2.2.1, (hagree c).2.2.2.2.2.1,
    (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
